-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn_part2 {F : FTy → Type} [FloatOps F] (main_arg7 : FVec F S100000x128 .f32) (main_v33 : IVec S_ 1) : IVec S_ 1 :=
  let main_v34 : FVec F S100000x128 .f32 := Host.absf main_arg7
  let main_cst_12 : FVec F S_ .f32 := constant S_ .f32 0x7F800000#32
  let main_v35 : FVec F S100000x128 .f32 := broadcastInDim S100000x128 ![] bcast_S_S100000x128 main_cst_12
  let main_v36 : IVec S100000x128 1 := cmpf .olt main_v34 main_v35
  let main_c_13 : IVec S_ 1 := constantI S_ 1 1#1
  let main_v37 : IVec S_ 1 := (fun x v => Host.reduce IntOp.andi x v reducesTo_S100000x128_S_d0_1 h_S_) main_v36 main_c_13
  let main_v38 : IVec S_ 1 := andi main_v33 main_v37
  main_v38

def fn_part1 {F : FTy → Type} [FloatOps F] (main_arg4 : FVec F S100000x128 .f32) (main_arg5 : FVec F S100000x128 .f32) (main_arg6 : FVec F S100000x128 .f32) (main_arg7 : FVec F S100000x128 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S100000x128 .f32 := Host.absf main_arg4
  let main_cst_6 : FVec F S_ .f32 := constant S_ .f32 0x7F800000#32
  let main_v20 : FVec F S100000x128 .f32 := broadcastInDim S100000x128 ![] bcast_S_S100000x128 main_cst_6
  let main_v21 : IVec S100000x128 1 := cmpf .olt main_v19 main_v20
  let main_c_7 : IVec S_ 1 := constantI S_ 1 1#1
  let main_v22 : IVec S_ 1 := (fun x v => Host.reduce IntOp.andi x v reducesTo_S100000x128_S_d0_1 h_S_) main_v21 main_c_7
  let main_v23 : IVec S_ 1 := andi main_v18 main_v22
  let main_v24 : FVec F S100000x128 .f32 := Host.absf main_arg5
  let main_cst_8 : FVec F S_ .f32 := constant S_ .f32 0x7F800000#32
  let main_v25 : FVec F S100000x128 .f32 := broadcastInDim S100000x128 ![] bcast_S_S100000x128 main_cst_8
  let main_v26 : IVec S100000x128 1 := cmpf .olt main_v24 main_v25
  let main_c_9 : IVec S_ 1 := constantI S_ 1 1#1
  let main_v27 : IVec S_ 1 := (fun x v => Host.reduce IntOp.andi x v reducesTo_S100000x128_S_d0_1 h_S_) main_v26 main_c_9
  let main_v28 : IVec S_ 1 := andi main_v23 main_v27
  let main_v29 : FVec F S100000x128 .f32 := Host.absf main_arg6
  let main_cst_10 : FVec F S_ .f32 := constant S_ .f32 0x7F800000#32
  let main_v30 : FVec F S100000x128 .f32 := broadcastInDim S100000x128 ![] bcast_S_S100000x128 main_cst_10
  let main_v31 : IVec S100000x128 1 := cmpf .olt main_v29 main_v30
  let main_c_11 : IVec S_ 1 := constantI S_ 1 1#1
  let main_v32 : IVec S_ 1 := (fun x v => Host.reduce IntOp.andi x v reducesTo_S100000x128_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S100000x128 .f32) (main_arg2 : FVec F S100000x128 .f32) (main_arg3 : FVec F S100000x128 .f32) (main_arg4 : FVec F S100000x128 .f32) (main_arg5 : FVec F S100000x128 .f32) (main_arg6 : FVec F S100000x128 .f32) (main_arg7 : FVec F S100000x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg4 main_arg5 main_arg6 main_arg7 main_v13 main_v16
-- ==== Kernel.lean ====
abbrev S100000x128 : Shape := ⟨2, ![100000, 128]⟩
abbrev S2x1x1 : Shape := ⟨3, ![2, 1, 1]⟩
abbrev S2000x128 : Shape := ⟨2, ![2000, 128]⟩
abbrev S1x1x1 : Shape := ⟨3, ![1, 1, 1]⟩
abbrev S1x1 : Shape := ⟨2, ![1, 1]⟩
abbrev S2000 : Shape := ⟨1, ![2000]⟩
abbrev S2000x1 : Shape := ⟨2, ![2000, 1]⟩
abbrev S1 : Shape := ⟨1, ![1]⟩
abbrev S128x128 : Shape := ⟨2, ![128, 128]⟩
abbrev S128 : Shape := ⟨1, ![128]⟩
abbrev S128x1 : Shape := ⟨2, ![128, 1]⟩
abbrev S_ : Shape := ⟨0, ![]⟩

abbrev nBuf : Space → Nat
  | .hbm => 15
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S100000x128, .f32⟩
  | .hbm, ⟨6, _⟩ => ⟨S100000x128, .f32⟩
  | .hbm, ⟨7, _⟩ => ⟨S100000x128, .f32⟩
  | .hbm, ⟨8, _⟩ => ⟨S2x1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S1x1x1, .f32⟩
  | .local _ .vmem, ⟨17, _⟩ => ⟨S1x1x1, .f32⟩
  | .local _ .vmem, ⟨18, _⟩ => ⟨S1x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v365 : BitVec 1 := Scalar.cmpi .eq arg1 c24_i32
  let v366 : BitVec 32 := Scalar.extui v365
  let c0_i32_134 : BitVec 32 := 0#32
  let v367 : BitVec 1 := Scalar.cmpi .ne v366 c0_i32_134
  v367

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  reduces_S2000x1_S1 : S2000x1.Reduces [0] S1
  shapeCasts_S1_S1x1 : S1.ShapeCasts S1x1
  bitsLt_bf16_f32 : FTy.bits .bf16 < FTy.bits .f32
  reduces_S128x128_S128 : S128x128.Reduces [1] S128
  shapeCasts_S128_S128x1 : S128.ShapeCasts S128x1
  reduces_S128x1_S1 : S128x1.Reduces [0] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  dot_S2000x128_S2000x128_S128x128_0_0_1_1_n_n_wf : DotDims.WF S2000x128 S2000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S2x1x1.size a
  hwx0_8 : ∀ i : grid0.Coords, EltTy.bits .f32 = 32 ∨ (Rect.block (s := S2x1x1) S1x1x1.size (cc0_transform_8 i) (hinb0_8 i)).WholeWords (EltTy.packing .f32)

variable [Facts₀]

def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2000x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S100000x128 : Shape := ⟨2, ![100000, 128]⟩
abbrev S100000x1x128 : Shape := ⟨3, ![100000, 1, 128]⟩
abbrev S100000x8x128 : Shape := ⟨3, ![100000, 8, 128]⟩
abbrev S_ : Shape := ⟨0, ![]⟩
abbrev S100000x8 : Shape := ⟨2, ![100000, 8]⟩
abbrev S100000x8x1 : Shape := ⟨3, ![100000, 8, 1]⟩
abbrev S100000x8x8 : Shape := ⟨3, ![100000, 8, 8]⟩
abbrev S8x8 : Shape := ⟨2, ![8, 8]⟩
abbrev S1x8x8 : Shape := ⟨3, ![1, 8, 8]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S100000x128, .f32⟩
  | .hbm, ⟨6, _⟩ => ⟨S100000x128, .f32⟩
  | .hbm, ⟨7, _⟩ => ⟨S100000x128, .f32⟩
  | .hbm, ⟨8, _⟩ => ⟨S100000x1x128, .f32⟩
  | .hbm, ⟨9, _⟩ => ⟨S100000x1x128, .f32⟩
  | .hbm, ⟨10, _⟩ => ⟨S100000x1x128, .f32⟩
  | .hbm, ⟨11, _⟩ => ⟨S100000x1x128, .f32⟩
  | .hbm, ⟨12, _⟩ => ⟨S100000x1x128, .f32⟩
  | .hbm, ⟨13, _⟩ => ⟨S100000x1x128, .f32⟩
  | .hbm, ⟨14, _⟩ => ⟨S100000x1x128, .f32⟩
  | .hbm, ⟨15, _⟩ => ⟨S100000x1x128, .f32⟩
  | .hbm, ⟨16, _⟩ => ⟨S100000x8x128, .f32⟩
  | .hbm, ⟨17, _⟩ => ⟨S100000x8x128, .f32⟩
  | .hbm, ⟨18, _⟩ => ⟨S_, .f32⟩
  | .hbm, ⟨19, _⟩ => ⟨S100000x8, .f32⟩
  | .hbm, ⟨20, _⟩ => ⟨S100000x8x1, .f32⟩
  | .hbm, ⟨21, _⟩ => ⟨S100000x8x1, .f32⟩
  | .hbm, ⟨22, _⟩ => ⟨S_, .f32⟩
  | .hbm, ⟨23, _⟩ => ⟨S100000x8x1, .f32⟩
  | .hbm, ⟨24, _⟩ => ⟨S100000x8x1, .f32⟩
  | .hbm, ⟨25, _⟩ => ⟨S100000x8x128, .f32⟩
  | .hbm, ⟨26, _⟩ => ⟨S100000x8x128, .f32⟩
  | .hbm, ⟨27, _⟩ => ⟨S100000x8x8, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S1x8x8, .f32⟩
  | .hbm, ⟨36, _⟩ => ⟨S100000x8x8, .f32⟩
  | .hbm, ⟨37, _⟩ => ⟨S100000x8x8, .f32⟩
  | .hbm, ⟨38, _⟩ => ⟨S100000x8x8, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  bcast_S100000x128_S100000x1x128_0_2 : S100000x128.BroadcastsInDim S100000x1x128 (![0, 2] : Fin 2 → Fin S100000x1x128.rank)
  concatenates_S100000x1x128_S100000x1x128_S100000x1x128_S100000x1x128_S100000x1x128_S100000x1x128_S100000x1x128_S100000x1x128_S100000x8x128_d1 : Shape.Concatenates [S100000x1x128, S100000x1x128, S100000x1x128, S100000x1x128, S100000x1x128, S100000x1x128, S100000x1x128, S100000x1x128] S100000x8x128 1
  reducesTo_S100000x8x128_S100000x8_d2 : S100000x8x128.ReducesTo [2] S100000x8
  h_S_ : 0 < S_.numel
  bcast_S100000x8_S100000x8x1_0_1 : S100000x8.BroadcastsInDim S100000x8x1 (![0, 1] : Fin 2 → Fin S100000x8x1.rank)
  bcast_S_S100000x8x1 : S_.BroadcastsInDim S100000x8x1 (![] : Fin 0 → Fin S100000x8x1.rank)
  bcast_S100000x8x1_S100000x8x128_0_1_2 : S100000x8x1.BroadcastsInDim S100000x8x128 (![0, 1, 2] : Fin 3 → Fin S100000x8x128.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S100000x8x8_0_1_2 : S1x8x8.BroadcastsInDim S100000x8x8 (![0, 1, 2] : Fin 3 → Fin S100000x8x8.rank)
  reducesTo_S100000x8x8_S_d0_1_2 : S100000x8x8.ReducesTo [0, 1, 2] S_
  dot_S100000x8x128_S100000x8x128_S100000x8x8_2_2_1_1_0_0_wf : DotDims.WF S100000x8x128 S100000x8x128 S100000x8x8 [2] [2] [1] [1] [0] [0]

variable [Facts₀]

def dot_S100000x8x128_S100000x8x128_S100000x8x8_2_2_1_1_0_0 : DotDims S100000x8x128 S100000x8x128 S100000x8x8 where
  lhsContracting := [2]
  rhsContracting := [2]
  lhsNonContracting := [1]
  rhsNonContracting := [1]
  lhsBatch := [0]
  rhsBatch := [0]
  wf := dot_S100000x8x128_S100000x8x128_S100000x8x8_2_2_1_1_0_0_wf

class Facts : Prop extends Facts₀ where

variable [Facts]
-- ==== Proof.Pieces.lean ====
/-
  What each case of the body leaves behind, as values. The body has three cases, by the position i of the point inside
  its half of the grid: i = 0 (the accumulator is first set to zero), 0 < i < 24, and i = 24 (the accumulator is also
  copied to the output block). In every case the accumulator ends at `step` of the eight input blocks and of what it
  held before (zero at i = 0): one function, the body's arithmetic composed in the order the body computes it.
-/
import proofs.«147866_j78932908966303_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One step of the body: from the eight heads' blocks and the accumulator's contents, the accumulator's new contents
    (the old contents plus this tile's contribution, as the body computes it). -/
def step (x0 x1 x2 x3 x4 x5 x6 x7 : Vec F S2000x128 .f32) (acc : Vec F S1x1 .f32) : Vec F S1x1 .f32 :=
  k0_pay1
      (k0_pay23 (k0_pay5 x1) (k0_pay7 x2 (k0_pay6 x2)) (k0_pay8 x3) (k0_pay9 x4) (k0_pay10 x5) (k0_pay11 x6)
        (k0_pay12 x7) k0_pay13 (k0_pay15 (k0_pay4 x0)))
      (k0_pay24 (k0_pay5 x1) (k0_pay7 x2 (k0_pay6 x2)) (k0_pay8 x3) (k0_pay9 x4) (k0_pay10 x5) (k0_pay11 x6)
        (k0_pay12 x7) k0_pay14 (k0_pay15 (k0_pay4 x0)))
      (k0_pay34 (k0_pay9 x4) (k0_pay10 x5) (k0_pay11 x6) (k0_pay12 x7)
        (k0_pay32 (k0_pay7 x2 (k0_pay6 x2)) (k0_pay8 x3) (k0_pay9 x4) (k0_pay10 x5) (k0_pay11 x6) (k0_pay12 x7)
          (k0_pay30 (k0_pay5 x1) (k0_pay7 x2 (k0_pay6 x2)) (k0_pay8 x3) (k0_pay9 x4) (k0_pay10 x5) (k0_pay11 x6)
            (k0_pay12 x7)
            (k0_pay28 (k0_pay4 x0) (k0_pay5 x1) (k0_pay7 x2 (k0_pay6 x2)) (k0_pay8 x3) (k0_pay9 x4) (k0_pay12 x7)
              (k0_pay26 (k0_pay4 x0) (k0_pay5 x1) (k0_pay7 x2 (k0_pay6 x2)) (k0_pay8 x3) (k0_pay9 x4) (k0_pay10 x5)
                k0_pay25)
              (k0_pay27 (k0_pay4 x0) (k0_pay11 x6)))
            (k0_pay29 (k0_pay5 x1) (k0_pay10 x5)))
          (k0_pay31 (k0_pay7 x2 (k0_pay6 x2)) (k0_pay11 x6)))
        (k0_pay33 (k0_pay8 x3) (k0_pay12 x7)))
      (k0_pay35 (k0_pay11 x6) (k0_pay12 x7)) (constant S128x128 FTy.f32 0#32) acc

/-- The accumulator's contents at the start of a half: the splat of the zero word. -/
abbrev zeroAcc : Vec F S1x1 .f32 := k0_pay3

/-- A point in the middle of a half leaves the accumulator at one step from what the point before left. -/
theorem sout_B (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S2000x128 .f32) (harg9 : arg9.IsWhole) (arg10 : Memref sig .tc .vmem S1x1x1 .f32) (harg10 : arg10.IsWhole) (arg11 : Memref sig .tc .vmem S1x1 .f32) (harg11 : arg11.IsWhole) (hc0 : ¬cond0_0 i) (hc1 : ¬cond0_1 i) (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S2000x128 .f32) (xs0 : Vec F S1x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = step x0 x1 x2 x3 x4 x5 x6 x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2000x128) hz2, View.ld_unit_zero (S := S1x1) hz2, View.ld_unit_zero (S := S1x1x1) hz3]
  rfl

/-- The last point of a half leaves the accumulator likewise … -/
theorem sout_C (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S2000x128 .f32) (harg9 : arg9.IsWhole) (arg10 : Memref sig .tc .vmem S1x1x1 .f32) (harg10 : arg10.IsWhole) (arg11 : Memref sig .tc .vmem S1x1 .f32) (harg11 : arg11.IsWhole) (hc0 : ¬cond0_0 i) (hc1 : cond0_1 i) (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S2000x128 .f32) (xs0 : Vec F S1x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = step x0 x1 x2 x3 x4 x5 x6 x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2000x128) hz2, View.ld_unit_zero (S := S1x1) hz2, View.ld_unit_zero (S := S1x1x1) hz3]
  rfl

/-- … and the output block at the accumulator's new contents, recast from [1, 1] to [1, 1, 1]. -/
theorem out_C (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S2000x128 .f32) (harg9 : arg9.IsWhole) (arg10 : Memref sig .tc .vmem S1x1x1 .f32) (harg10 : arg10.IsWhole) (arg11 : Memref sig .tc .vmem S1x1 .f32) (harg11 : arg11.IsWhole) (hc0 : ¬cond0_0 i) (hc1 : cond0_1 i) (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S2000x128 .f32) (xs0 : Vec F S1x1 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 (step x0 x1 x2 x3 x4 x5 x6 x7 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2000x128) hz2, View.ld_unit_zero (S := S1x1) hz2, View.ld_unit_zero (S := S1x1x1) hz3]
  rfl

/-- The first point of a half sets the accumulator to zero and leaves it at one step from zero. -/
theorem sout_A (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S2000x128 .f32) (harg9 : arg9.IsWhole) (arg10 : Memref sig .tc .vmem S1x1x1 .f32) (harg10 : arg10.IsWhole) (arg11 : Memref sig .tc .vmem S1x1 .f32) (harg11 : arg11.IsWhole) (hc0 : cond0_0 i) (hc1 : ¬cond0_1 i) (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S2000x128 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = step x0 x1 x2 x3 x4 x5 x6 x7 zeroAcc := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2000x128) hz2, View.ld_unit_zero (S := S1x1) hz2, View.ld_unit_zero (S := S1x1x1) hz3]
  rfl

end Cert.KernelIdeal.Pieces
end
-- ==== Proof.LibColumnOps.lean ====
/-
  Two readings at an index given by coordinates, over generic extents.

  A column `[a, 1]` stretched over `[a, b]` (a row statistic kept as a column and broadcast back over the row) reads, at
  `(p, c)`, the column at `(p, 0)`.

  A reduction along ONE axis of an f32 array, as a kernel body prints it — the accumulator's word written out and the proof
  that it is the operation's neutral word an equation between two literals —: the maximum from the word of `-∞` is the
  fold of `max` from `⊥` over that axis's coordinates (`rowMax_single`), the sum from the zero word is the sum over them
  (`rowSum_single`).

  A matrix product `[K, M] × [K, N] → [M, N]` whose dimension numbers contract the FIRST axis of both operands and keep
  the other two in order (`ColDot`): the sum over the contraction index at output `(p, n)` is
  `∑ k : Fin K, x (k, p) · w (k, n)` (`sum_contr_col_eq`), and so is the product into a zero accumulator read at `(p, n)`
  (`matmul_zero_col_apply`). Only the commutative monoid of the extended reals' addition is used.
-/
import Idealize.ShloMosaic.Lib.ValueIdx
import Idealize.ShloMosaic.Lib.Pipeline.Value
import Idealize.ShloMosaic.PureOps.Ideal.Laws

noncomputable section

namespace Idealize.ShloMosaic.ColumnOps

open Idealize.ShloMosaic Idealize.ShloMosaic.ValueIdx

/-- A column `[a, 1]` broadcast to `[a, b]` reads, at `(p, c)`, the column at `(p, 0)`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A printed `multi_reduction <maximumf>` over one axis from the word of `-∞`, at a result index: the fold of `max` from `⊥`
    of the source along that axis. -/
theorem rowMax_single {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).fold max ⊥ (src ∘ h.lift j) := by
  refine (Ideal.multiReduction_maximumf_single src 0xFF800000#32 h hφ hacc j).trans ?_
  show (Finset.univ : Finset (Fin (s.size a))).fold max (Ideal.ofBits .f32 0xFF800000#32) _ = _
  rw [show Ideal.ofBits .f32 0xFF800000#32 = (⊥ : EReal) by simp [Ideal.ofBits, Ideal.ieee]]

/-- A printed `multi_reduction <add>` over one axis from the zero word, at a result index: the sum of the source along
    that axis. -/
theorem rowSum_single {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The dimension numbers of a product contracting the first axis of both operands: one contracted axis of extent `K`;
    the left operand's index at output `j` and contraction index `q` is `(q, j 0)`, the right operand's `(q, j 1)`. -/
structure ColDot {K M N : Nat} (d : DotDims (⟨2, ![K, M]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {K M N : Nat}

/-- The contraction's sum at output `j` is the sum over `k : Fin K` of `x (k, j 0) · w (k, j 1)`. -/
theorem sum_contr_col_eq (d : DotDims (⟨2, ![K, M]⟩ : Shape) (⟨2, ![K, N]⟩ : Shape) (⟨2, ![M, N]⟩ : Shape)) (h : ColDot d)
    (x : (⟨2, ![K, M]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 k (j 0)) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 k (j 0) := funext fun a => Fin.ext (by
    match a with
    | ⟨0, _⟩ => exact (h.l0 _ _).trans hk
    | ⟨1, _⟩ => exact h.l1 _ _)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_col_apply {φ₁ φ₂ : FTy}
    (d : DotDims (⟨2, ![K, M]⟩ : Shape) (⟨2, ![K, N]⟩ : Shape) (⟨2, ![M, N]⟩ : Shape)) (hd : ColDot d)
    (prec : Option ContractPrecision) (lhs : FVec Ideal ⟨2, ![K, M]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 k p) * rhs (ix2 k n) :=
  (Ideal.matmul_constant_zero_apply d prec lhs rhs (ix2 p n)).trans (sum_contr_col_eq d hd lhs rhs (ix2 p n))

end Idealize.ShloMosaic.ColumnOps

end
-- ==== Proof.LibColumnSum.lean ====
/-
  Two readings at an index that a sum along the second axis, kept as a one-entry-per-row column, needs, at any
  extents `a`, `b`.

  A vector of `a` entries recast as a column of `a` rows and one entry per row has, in row `i`, the vector's entry `i`: the
  two positions are the same in row-major order, `i = i·1 + 0`. And the sum of an `a × b` array along its second axis,
  from the zero word, has at `r` the sum over `k` of the array's entries `(r, k)`.
-/
import Idealize.ShloMosaic.Lib.ValueIdx
import Idealize.ShloMosaic.Lib.Pipeline.Value
import Idealize.ShloMosaic.PureOps.Ideal.Laws

noncomputable section

namespace Cert.Lib.ColumnSum

open Idealize.ShloMosaic Idealize.ShloMosaic.ValueIdx

/-- An `[a]` array cast to `[a, 1]` reads, at `(i, u)`, the operand at `i`, whatever the unit coordinate `u`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its second axis, from the zero word, reads at `r` the sum over
    `k` of the entries `(r, k)`. -/
theorem lane_sum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun d => Fin.ext (by
      match d with
      | ⟨0, _⟩ => rfl
      | ⟨1, _⟩ => rfl)))

end Cert.Lib.ColumnSum

end
-- ==== Proof.LibColumnTotal.lean ====
/-
  The sum of a one-entry-per-row column along its FIRST axis, read at its one index, at any number of rows `n`.

  A column of `n` rows and one entry per row, summed along the rows from the zero word, leaves one number: the sum over
  the rows `r` of the entry `(r, u)`, `u` the unit coordinate. Recast from `[1]` to `[1, 1]` it is still that number.
-/
import Idealize.ShloMosaic.Lib.ValueIdx
import Idealize.ShloMosaic.Lib.Pipeline.Value
import Idealize.ShloMosaic.PureOps.Ideal.Laws

noncomputable section

namespace Cert.Lib.ColumnTotal

open Idealize.ShloMosaic Idealize.ShloMosaic.ValueIdx

/-- The sum of an `[n, 1]` array of extended reals along its first axis, from the zero word, reads at `u` the sum over the
    rows `r` of the entries `(r, u)`. -/
theorem total_apply {n : ℕ} (v : FVec Ideal ⟨2, ![n, 1]⟩ .f32) (h : (⟨2, ![n, 1]⟩ : Shape).Reduces [0] ⟨1, ![1]⟩)
    (hφ : FKind.Formats .f32) (hacc : (0x00000000#32 : BitVec 32) = FKind.add.neutral .f32 hφ) (u : Fin 1) :
    multiReduction .add [0] ⟨1, ![1]⟩ v 0x00000000#32 h hφ hacc (ix1 u) = ∑ r : Fin n, v (ix2 r u) :=
  (Ideal.multiReduction_add_single v 0x00000000#32 h hφ hacc (ix1 u)).trans
    (Finset.sum_congr rfl fun k _ => congrArg v (funext fun d => Fin.ext (by
      match d with
      | ⟨0, _⟩ => rfl
      | ⟨1, _⟩ => rfl)))

/-- A `[1]` array cast to `[1, 1]` reads, at its one index, the operand's one entry. -/
theorem shapeCast_unit_apply {α : Type} (x : (⟨1, ![1]⟩ : Shape).Idx → α)
    (h : (⟨1, ![1]⟩ : Shape).ShapeCasts ⟨2, ![1, 1]⟩) (i u : Fin 1) :
    shapeCast ⟨2, ![1, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.ColumnTotal

end
-- ==== Proof.TileRead.lean ====
/-
  The body's reductions and its matrix product, read at an index on the extended reals, at this kernel's shapes: a sum
  along the lanes of a [2000,128] or [128,128] tile, the sum of a [2000,1] or [128,1] column, the casts between a vector
  and a column, and the product P^T P of a [2000,128] tile with itself (both operands contracted along their first axis)
  into the zero matrix, whose entry (p, q) is the sum over rows r of P(r,p) * P(r,q).
-/
import proofs.«147866_j78932908966303_2_alg».proof.Proof.Pieces
import proofs.«147866_j78932908966303_2_alg».proof.Proof.LibColumnOps
import proofs.«147866_j78932908966303_2_alg».proof.Proof.LibColumnSum
import proofs.«147866_j78932908966303_2_alg».proof.Proof.LibColumnTotal
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx

namespace Cert.KernelIdeal.TileRead

open Cert.KernelIdeal Cert.KernelIdeal.Gen

/-- The product's dimension numbers contract the first axis of both operands: the left index at output (p, q) and
    contraction index r is (r, p), the right one (r, q). -/
theorem colDot : Idealize.ShloMosaic.ColumnOps.ColDot dot_S2000x128_S2000x128_S128x128_0_0_1_1_n_n where
  hr := rfl
  hs := rfl
  l0 := fun j q => dot_S2000x128_S2000x128_S128x128_0_0_1_1_n_n.lhsIdx_val_of_single rfl j q
  l1 := fun j q => by
    unfold DotDims.lhsIdx
    rw [dif_neg (show ¬(1 : Fin S2000x128.rank) ∈ dot_S2000x128_S2000x128_S128x128_0_0_1_1_n_n.lhsBatch by decide),
      dif_pos (show (1 : Fin S2000x128.rank) ∈ dot_S2000x128_S2000x128_S128x128_0_0_1_1_n_n.lhsNonContracting by decide)]
    rfl
  r0 := fun j q => dot_S2000x128_S2000x128_S128x128_0_0_1_1_n_n.rhsIdx_val_of_single rfl j q
  r1 := fun j q => by
    unfold DotDims.rhsIdx
    rw [dif_neg (show ¬(1 : Fin S2000x128.rank) ∈ dot_S2000x128_S2000x128_S128x128_0_0_1_1_n_n.rhsBatch by decide),
      dif_pos (show (1 : Fin S2000x128.rank) ∈ dot_S2000x128_S2000x128_S128x128_0_0_1_1_n_n.rhsNonContracting by decide)]
    rfl

/-- P^T Q into the zero matrix, at (p, q): the sum over the 2000 rows. -/
theorem gram_apply {φ₁ φ₂ : FTy} (L : FVec Ideal S2000x128 φ₁) (R : FVec Ideal S2000x128 φ₂) (p q : Fin 128) :
    matmul dot_S2000x128_S2000x128_S128x128_0_0_1_1_n_n none L R (constant S128x128 .f32 0x00000000#32) (ix2 p q)
      = ∑ r : Fin 2000, L (ix2 r p) * R (ix2 r q) :=
  Idealize.ShloMosaic.ColumnOps.matmul_zero_col_apply dot_S2000x128_S2000x128_S128x128_0_0_1_1_n_n colDot none L R p q

/-- The sum along the lanes of a [2000,128] tile, at row r. (The two side conditions are typed as the body's unfolded text carries them.) -/
theorem lanes2000 (v : FVec Ideal S2000x128 .f32) (hφ : FTy.f32 = FTy.f32 ∨ FTy.f32 = FTy.bf16)
    (hacc : (0x00000000#32 : BitVec 32) = 0x00000000#32) (r : Fin 2000) :
    multiReduction .add [1] S2000 v 0x00000000#32 reduces_S2000x128_S2000 hφ hacc (ix1 r) = ∑ k : Fin 128, v (ix2 r k) :=
  (Ideal.multiReduction_add_single v 0x00000000#32 reduces_S2000x128_S2000 hφ hacc (ix1 r)).trans
    (Finset.sum_congr rfl fun k _ => congrArg v (funext fun d => Fin.ext (by
      match d with
      | ⟨0, _⟩ => rfl
      | ⟨1, _⟩ => rfl)))

/-- The sum along the second axis of a [128,128] matrix, at row p. (The two side conditions are typed as the body's unfolded text carries them.) -/
theorem lanes128 (v : FVec Ideal S128x128 .f32) (hφ : FTy.f32 = FTy.f32 ∨ FTy.f32 = FTy.bf16)
    (hacc : (0x00000000#32 : BitVec 32) = 0x00000000#32) (p : Fin 128) :
    multiReduction .add [1] S128 v 0x00000000#32 reduces_S128x128_S128 hφ hacc (ix1 p) = ∑ k : Fin 128, v (ix2 p k) :=
  (Ideal.multiReduction_add_single v 0x00000000#32 reduces_S128x128_S128 hφ hacc (ix1 p)).trans
    (Finset.sum_congr rfl fun k _ => congrArg v (funext fun d => Fin.ext (by
      match d with
      | ⟨0, _⟩ => rfl
      | ⟨1, _⟩ => rfl)))

/-- The sum of a [2000,1] column. (The two side conditions are typed as the body's unfolded text carries them.) -/
theorem total2000 (v : FVec Ideal S2000x1 .f32) (hφ : FTy.f32 = FTy.f32 ∨ FTy.f32 = FTy.bf16)
    (hacc : (0x00000000#32 : BitVec 32) = 0x00000000#32) (u : Fin 1) :
    multiReduction .add [0] S1 v 0x00000000#32 reduces_S2000x1_S1 hφ hacc (ix1 u) = ∑ r : Fin 2000, v (ix2 r u) :=
  (Ideal.multiReduction_add_single v 0x00000000#32 reduces_S2000x1_S1 hφ hacc (ix1 u)).trans
    (Finset.sum_congr rfl fun k _ => congrArg v (funext fun d => Fin.ext (by
      match d with
      | ⟨0, _⟩ => rfl
      | ⟨1, _⟩ => rfl)))

/-- The sum of a [128,1] column. (The two side conditions are typed as the body's unfolded text carries them.) -/
theorem total128 (v : FVec Ideal S128x1 .f32) (hφ : FTy.f32 = FTy.f32 ∨ FTy.f32 = FTy.bf16)
    (hacc : (0x00000000#32 : BitVec 32) = 0x00000000#32) (u : Fin 1) :
    multiReduction .add [0] S1 v 0x00000000#32 reduces_S128x1_S1 hφ hacc (ix1 u) = ∑ r : Fin 128, v (ix2 r u) :=
  (Ideal.multiReduction_add_single v 0x00000000#32 reduces_S128x1_S1 hφ hacc (ix1 u)).trans
    (Finset.sum_congr rfl fun k _ => congrArg v (funext fun d => Fin.ext (by
      match d with
      | ⟨0, _⟩ => rfl
      | ⟨1, _⟩ => rfl)))

/-- A [2000] vector as a column. -/
theorem col2000 {α : Type} (x : S2000.Idx → α) (i : Fin 2000) (u : Fin 1) :
    shapeCast S2000x1 x shapeCasts_S2000_S2000x1 (ix2 i u) = x (ix1 i) :=
  Cert.Lib.ColumnSum.shapeCast_column_apply x shapeCasts_S2000_S2000x1 i u

/-- A [128] vector as a column. -/
theorem col128 {α : Type} (x : S128.Idx → α) (i : Fin 128) (u : Fin 1) :
    shapeCast S128x1 x shapeCasts_S128_S128x1 (ix2 i u) = x (ix1 i) :=
  Cert.Lib.ColumnSum.shapeCast_column_apply x shapeCasts_S128_S128x1 i u

/-- A [1] vector as a [1,1] matrix. -/
theorem unit11 {α : Type} (x : S1.Idx → α) (i u : Fin 1) :
    shapeCast S1x1 x shapeCasts_S1_S1x1 (ix2 i u) = x (ix1 i) :=
  Cert.Lib.ColumnTotal.shapeCast_unit_apply x shapeCasts_S1_S1x1 i u

end Cert.KernelIdeal.TileRead

end
-- ==== Proof.Tile.lean ====
/-
  One step of the body, read on the extended reals.

  Over the eight normalized tiles N0 … N7 (each [2000,128]) the body forms: for each head the column of its rows' squared
  lengths (rowDots); the two columns (0 + d0 + … + d7) and (0 + d0·d0 + … + d7·d7), each summed over the 2000 rows (colTot);
  and, for the 28 pairs k < l in the order (0,1), (0,2), …, (6,7), the sum of all entries of P^T P with P = Nk ∘ Nl entry
  by entry (pairTot), added up from zero. The accumulator becomes  acc + ((sq − 2·sd) + 2·off).  Read at its one index this
  is an expression in sums over rows and lanes of the tiles' entries, with no order and no rounding.
-/
import proofs.«147866_j78932908966303_2_alg».proof.Proof.TileRead

set_option maxRecDepth 65536

noncomputable section

open scoped BigOperators
open Idealize.ShloMosaic Idealize.ShloMosaic.TcCoe Idealize.ShloMosaic.ValueIdx

namespace Cert.KernelIdeal.Tile

open Cert.KernelIdeal Cert.KernelIdeal.Gen Cert.KernelIdeal.Pieces Cert.KernelIdeal.TileRead

/-- A [2000,128] tile of extended reals. -/
abbrev Tl : Type := FVec Ideal S2000x128 .f32

/-- The column of the rows' dot products with themselves. -/
def rowDots (N : Tl) : FVec Ideal S2000x1 .f32 :=
  shapeCast S2000x1 (multiReduction .add [1] S2000 (mulf N N) 0x00000000#32 reduces_S2000x128_S2000 (.inl rfl) rfl)
    shapeCasts_S2000_S2000x1

theorem rowDots_apply (N : Tl) (r : Fin 2000) (u : Fin 1) :
    rowDots N (ix2 r u) = ∑ k : Fin 128, N (ix2 r k) * N (ix2 r k) :=
  (col2000 _ r u).trans (lanes2000 (mulf N N) _ _ r)

/-- The sum of a [2000,1] column, as a [1,1] matrix. -/
def colTot (v : FVec Ideal S2000x1 .f32) : FVec Ideal S1x1 .f32 :=
  shapeCast S1x1 (multiReduction .add [0] S1 v 0x00000000#32 reduces_S2000x1_S1 (.inl rfl) rfl) shapeCasts_S1_S1x1

theorem colTot_apply (v : FVec Ideal S2000x1 .f32) (i u : Fin 1) :
    colTot v (ix2 i u) = ∑ r : Fin 2000, v (ix2 r i) :=
  (unit11 _ i u).trans (total2000 v _ _ i)

/-- The sum of all entries of P^T P, P = A ∘ B entry by entry, as a [1] vector. -/
def pairTot (A B : Tl) : FVec Ideal S1 .f32 :=
  multiReduction .add [0] S1
    (shapeCast S128x1
      (multiReduction .add [1] S128
        (matmul dot_S2000x128_S2000x128_S128x128_0_0_1_1_n_n none (truncf .bf16 (mulf A B) bitsLt_bf16_f32)
          (truncf .bf16 (mulf A B) bitsLt_bf16_f32) (constant S128x128 .f32 0x00000000#32))
        0x00000000#32 reduces_S128x128_S128 (.inl rfl) rfl)
      shapeCasts_S128_S128x1)
    0x00000000#32 reduces_S128x1_S1 (.inl rfl) rfl

theorem pairTot_apply (A B : Tl) (u : Fin 1) :
    pairTot A B (ix1 u)
      = ∑ p : Fin 128, ∑ q : Fin 128, ∑ r : Fin 2000,
          (A (ix2 r p) * B (ix2 r p)) * (A (ix2 r q) * B (ix2 r q)) :=
  (total128 _ _ _ u).trans (Finset.sum_congr rfl fun p _ =>
    (col128 _ p u).trans ((lanes128 _ _ _ p).trans (Finset.sum_congr rfl fun q _ =>
      gram_apply (truncf .bf16 (mulf A B) bitsLt_bf16_f32) (truncf .bf16 (mulf A B) bitsLt_bf16_f32) p q)))

/-- The same as a [1,1] matrix. -/
def pair11 (A B : Tl) : FVec Ideal S1x1 .f32 := shapeCast S1x1 (pairTot A B) shapeCasts_S1_S1x1

theorem pair11_apply (A B : Tl) (i u : Fin 1) :
    pair11 A B (ix2 i u)
      = ∑ p : Fin 128, ∑ q : Fin 128, ∑ r : Fin 2000,
          (A (ix2 r p) * B (ix2 r p)) * (A (ix2 r q) * B (ix2 r q)) :=
  (unit11 _ i u).trans (pairTot_apply A B i)

/-- The zero column, the zero [1,1] matrix and the [1,1] matrix of the word of 2. -/
abbrev z2000 : FVec Ideal S2000x1 .f32 := broadcast S2000x1 (Scalar.ofBits (F := Ideal) .f32 0x00000000#32)
abbrev z11 : FVec Ideal S1x1 .f32 := broadcast S1x1 (Scalar.ofBits (F := Ideal) .f32 0x00000000#32)
abbrev two11 : FVec Ideal S1x1 .f32 := broadcast S1x1 (Scalar.ofBits (F := Ideal) .f32 0x40000000#32)

/-- One step of the body over the eight normalized tiles, composed of the three pieces above. -/
def stepSpec (N0 N1 N2 N3 N4 N5 N6 N7 : Tl) (acc : Vec Ideal S1x1 .f32) : Vec Ideal S1x1 .f32 :=
  shapeCast S1x1
    (addf acc
      (addf
        (subf (colTot (addf (addf (addf (addf (addf (addf (addf (addf z2000 (mulf (rowDots N0) (rowDots N0))) (mulf (rowDots N1) (rowDots N1))) (mulf (rowDots N2) (rowDots N2))) (mulf (rowDots N3) (rowDots N3))) (mulf (rowDots N4) (rowDots N4))) (mulf (rowDots N5) (rowDots N5))) (mulf (rowDots N6) (rowDots N6))) (mulf (rowDots N7) (rowDots N7))))
          (mulf two11 (colTot (addf (addf (addf (addf (addf (addf (addf (addf z2000 (rowDots N0)) (rowDots N1)) (rowDots N2)) (rowDots N3)) (rowDots N4)) (rowDots N5)) (rowDots N6)) (rowDots N7)))))
        (mulf two11 (addf (addf (addf (addf (addf (addf (addf (addf (addf (addf (addf (addf (addf (addf (addf (addf (addf (addf (addf (addf (addf (addf (addf (addf (addf (addf (addf (addf z11 (pair11 N0 N1)) (pair11 N0 N2)) (pair11 N0 N3)) (pair11 N0 N4)) (pair11 N0 N5)) (pair11 N0 N6)) (pair11 N0 N7)) (pair11 N1 N2)) (pair11 N1 N3)) (pair11 N1 N4)) (pair11 N1 N5)) (pair11 N1 N6)) (pair11 N1 N7)) (pair11 N2 N3)) (pair11 N2 N4)) (pair11 N2 N5)) (pair11 N2 N6)) (pair11 N2 N7)) (pair11 N3 N4)) (pair11 N3 N5)) (pair11 N3 N6)) (pair11 N3 N7)) (pair11 N4 N5)) (pair11 N4 N6)) (pair11 N4 N7)) (pair11 N5 N6)) (pair11 N5 N7)) (pair11 N6 N7)))))
    shapeCasts_S1x1_S1x1

/-- One step of the body over the eight normalized tiles, as the body's payloads compose it. -/
def stepN (N0 N1 N2 N3 N4 N5 N6 N7 : Tl) (acc : Vec Ideal S1x1 .f32) : Vec Ideal S1x1 .f32 :=
  k0_pay1
      (k0_pay23 N1 N2 N3 N4 N5 N6
        N7 k0_pay13 (k0_pay15 N0))
      (k0_pay24 N1 N2 N3 N4 N5 N6
        N7 k0_pay14 (k0_pay15 N0))
      (k0_pay34 N4 N5 N6 N7
        (k0_pay32 N2 N3 N4 N5 N6 N7
          (k0_pay30 N1 N2 N3 N4 N5 N6
            N7
            (k0_pay28 N0 N1 N2 N3 N4 N7
              (k0_pay26 N0 N1 N2 N3 N4 N5
                k0_pay25)
              (k0_pay27 N0 N6))
            (k0_pay29 N1 N5))
          (k0_pay31 N2 N6))
        (k0_pay33 N3 N7))
      (k0_pay35 N6 N7) (constant S128x128 FTy.f32 0#32) acc

/-- The body's step is the step over the tiles it normalizes … -/
theorem step_eq_stepN (x0 x1 x2 x3 x4 x5 x6 x7 : Vec Ideal S2000x128 .f32) (acc : Vec Ideal S1x1 .f32) :
    step (F := Ideal) x0 x1 x2 x3 x4 x5 x6 x7 acc
      = stepN (k0_pay4 x0) (k0_pay5 x1) (k0_pay7 x2 (k0_pay6 x2)) (k0_pay8 x3) (k0_pay9 x4) (k0_pay10 x5) (k0_pay11 x6)
          (k0_pay12 x7) acc := rfl

/-- … and that is the composition of the three pieces: the same operations in the same order. -/
theorem stepN_eq_spec (N0 N1 N2 N3 N4 N5 N6 N7 : Tl) (acc : Vec Ideal S1x1 .f32) :
    stepN N0 N1 N2 N3 N4 N5 N6 N7 acc = stepSpec N0 N1 N2 N3 N4 N5 N6 N7 acc := rfl

end Cert.KernelIdeal.Tile

end
-- ==== Proof.LibBlockSums.lean ====
/-
  Two general facts about finite sums in a commutative additive monoid.

  * `sum_fin_blocks`: a sum over the first `a * b` natural numbers can be taken block by block, in `a`
    consecutive blocks of `b` terms each: block `t` holds the indices `b * t + r` for `r < b`.
  * `fold_add_eq_sum`: an accumulator that starts at `0 + B 0` and is increased by `B (t + 1)` at step
    `t + 1` holds, after step `t`, the sum of `B 0, …, B t`.
-/
import Mathlib.Algebra.BigOperators.Fin
import Mathlib.Algebra.BigOperators.Intervals

namespace Cert.Lib.BlockSums

open Finset

/-- A sum over `a * b` consecutive indices, taken in `a` consecutive blocks of `b` indices each. -/
theorem sum_fin_blocks {M : Type*} [AddCommMonoid M] (a b : ℕ) (g : ℕ → M) :
    ∑ n : Fin (a * b), g n.val = ∑ t ∈ Finset.range a, ∑ r : Fin b, g (b * t + r.val) := by
  rw [Fin.sum_univ_eq_sum_range (fun n => g n) (a * b)]
  induction a with
  | zero => simp
  | succ a ih =>
    rw [Finset.sum_range_succ, ← ih, Nat.succ_mul, Finset.sum_range_add,
      Fin.sum_univ_eq_sum_range (fun r => g (b * a + r)) b]
    congr 1
    refine Finset.sum_congr rfl fun r _ => ?_
    rw [Nat.mul_comm a b]

/-- An accumulator started at zero plus the first block and increased by one block per step is the sum of
the blocks so far. -/
theorem fold_add_eq_sum {M : Type*} [AddCommMonoid M] (B : ℕ → M) (acc : ℕ → M)
    (h0 : acc 0 = 0 + B 0) (hs : ∀ t, acc (t + 1) = acc t + B (t + 1)) (t : ℕ) :
    acc t = ∑ s ∈ Finset.range (t + 1), B s := by
  induction t with
  | zero => rw [h0, zero_add, Finset.sum_range_one]
  | succ t ih => rw [hs, ih, Finset.sum_range_succ _ (t + 1)]

end Cert.Lib.BlockSums
-- ==== Proof.Law.lean ====
/-
  Finite-sum algebra over the real numbers, about eight-by-eight symmetric matrices attached to the
  points of a finite set.

  * `gram_sum`: the sum of all pairwise products of the column sums' summands is the sum, point by
    point, of the square of the row sum.
  * `node_eq`: for one symmetric matrix `c`, the sum of the squared diagonal entries, less twice the
    trace, plus twice the sum of the squared entries above the diagonal, is the sum over all 64 entries
    of the squared distance of `c` to the identity matrix, less 8.
  * `tile_eq`: the same identity summed over the points of a finite set, the entries above the
    diagonal being summed over the points first.
  * `tiles_total`: 50 blocks of 2000 points each, with the 8 per point put back: 8 * 100000 = 800000.
  * `halves`: a sum over 50 blocks is the sum over the first 25 plus the sum over the last 25.
-/
import Mathlib.Algebra.BigOperators.Fin
import Mathlib.Algebra.BigOperators.Intervals
import Mathlib.Algebra.BigOperators.Ring.Finset
import Mathlib.Data.Real.Basic
import Mathlib.Tactic.Ring
import Mathlib.Tactic.Linarith
import Mathlib.Tactic.NormNum
import proofs.«147866_j78932908966303_2_alg».proof.Proof.LibBlockSums

open scoped BigOperators

namespace Cert.Law

variable {ι : Type*} [Fintype ι]

/-- The Gram identity: summing `P n d * P n e` over all pairs `(d, e)` and all points `n` gives the sum
over the points of the square of the row sum `∑ d, P n d`. -/
theorem gram_sum {D : ℕ} (P : ι → Fin D → ℝ) :
    ∑ d : Fin D, ∑ e : Fin D, ∑ n : ι, P n d * P n e
      = ∑ n : ι, (∑ d : Fin D, P n d) * (∑ d : Fin D, P n d) :=
  calc ∑ d : Fin D, ∑ e : Fin D, ∑ n : ι, P n d * P n e
      = ∑ d : Fin D, ∑ n : ι, ∑ e : Fin D, P n d * P n e :=
        Finset.sum_congr rfl fun _ _ => Finset.sum_comm
    _ = ∑ n : ι, ∑ d : Fin D, ∑ e : Fin D, P n d * P n e := Finset.sum_comm
    _ = ∑ n : ι, (∑ d : Fin D, P n d) * (∑ d : Fin D, P n d) :=
        Finset.sum_congr rfl fun _ _ => (Finset.sum_mul_sum _ _ _ _).symm

/-- The sum over all 64 entries of the squared distance of the matrix `c` to the identity matrix. -/
def nodeRef (c : Fin 8 → Fin 8 → ℝ) : ℝ :=
  ∑ k : Fin 8, ∑ l : Fin 8, (c k l - if k = l then 1 else 0) * (c k l - if k = l then 1 else 0)

/-- The trace of `c`, added left to right from 0. -/
def nodeDiag (c : Fin 8 → Fin 8 → ℝ) : ℝ :=
  0 + c 0 0 + c 1 1 + c 2 2 + c 3 3 + c 4 4 + c 5 5 + c 6 6 + c 7 7

/-- The sum of the squared diagonal entries of `c`, added left to right from 0. -/
def nodeSq (c : Fin 8 → Fin 8 → ℝ) : ℝ :=
  0 + c 0 0 * c 0 0 + c 1 1 * c 1 1 + c 2 2 * c 2 2 + c 3 3 * c 3 3 + c 4 4 * c 4 4 + c 5 5 * c 5 5
    + c 6 6 * c 6 6 + c 7 7 * c 7 7

/-- The sum of the 28 entries `M k l` with `k < l`, in the order (0,1),(0,2),…,(0,7),(1,2),…,(1,7),
(2,3),…,(6,7), added left to right from 0. -/
def offSum (M : Fin 8 → Fin 8 → ℝ) : ℝ :=
  0 + M 0 1 + M 0 2 + M 0 3 + M 0 4 + M 0 5 + M 0 6 + M 0 7 + M 1 2 + M 1 3 + M 1 4 + M 1 5 + M 1 6 + M 1 7
    + M 2 3 + M 2 4 + M 2 5 + M 2 6 + M 2 7 + M 3 4 + M 3 5 + M 3 6 + M 3 7 + M 4 5 + M 4 6 + M 4 7 + M 5 6
    + M 5 7 + M 6 7

/-- For a symmetric matrix, the squared diagonal less twice the trace plus twice the squared upper
triangle is the squared distance to the identity matrix less 8: each off-diagonal square is counted
twice by symmetry, and `(x - 1)^2 = x^2 - 2 x + 1` on each of the 8 diagonal entries. -/
theorem node_eq (c : Fin 8 → Fin 8 → ℝ) (hs : ∀ k l, c k l = c l k) :
    (nodeSq c - 2 * nodeDiag c) + 2 * offSum (fun k l => c k l * c k l) = nodeRef c - 8 := by
  unfold nodeSq nodeDiag offSum nodeRef
  simp only [Fin.sum_univ_eight]
  simp only [Fin.isValue, Fin.reduceEq, ↓reduceIte]
  rw [hs 1 0, hs 2 0, hs 3 0, hs 4 0, hs 5 0, hs 6 0, hs 7 0, hs 2 1, hs 3 1, hs 4 1, hs 5 1, hs 6 1,
    hs 7 1, hs 3 2, hs 4 2, hs 5 2, hs 6 2, hs 7 2, hs 4 3, hs 5 3, hs 6 3, hs 7 3, hs 5 4, hs 6 4,
    hs 7 4, hs 6 5, hs 7 5, hs 7 6]
  ring

/-- The upper-triangle sum of entrywise sums over the points is the sum over the points of the
upper-triangle sums. -/
theorem offSum_sum (f : ι → Fin 8 → Fin 8 → ℝ) :
    offSum (fun k l => ∑ n : ι, f n k l) = ∑ n : ι, offSum (f n) := by
  unfold offSum
  simp only [Finset.sum_add_distrib, Finset.sum_const_zero]

/-- The identity of `node_eq` summed over the points of a finite set, with the squared entries above the
diagonal summed over the points before they are added up. -/
theorem tile_eq (c : ι → Fin 8 → Fin 8 → ℝ) (hs : ∀ n k l, c n k l = c n l k) :
    ((∑ n : ι, nodeSq (c n)) - 2 * (∑ n : ι, nodeDiag (c n)))
        + 2 * offSum (fun k l => ∑ n : ι, c n k l * c n k l)
      = ∑ n : ι, (nodeRef (c n) - 8) := by
  rw [offSum_sum (fun n k l => c n k l * c n k l), Finset.mul_sum, Finset.mul_sum,
    ← Finset.sum_sub_distrib, ← Finset.sum_add_distrib]
  exact Finset.sum_congr rfl fun n _ => node_eq (c n) (hs n)

/-- 50 tiles of 2000 nodes, 8 per node restored at the end: 8 * 100000 = 800000. -/
theorem tiles_total (f : ℕ → ℝ) :
    (∑ t ∈ Finset.range 50, ∑ r : Fin 2000, (f (2000 * t + r.val) - 8)) + 800000
      = ∑ n : Fin (50 * 2000), f n.val := by
  rw [← Cert.Lib.BlockSums.sum_fin_blocks 50 2000 (fun n => f n - 8), Finset.sum_sub_distrib,
    Finset.sum_const, Finset.card_univ, Fintype.card_fin, nsmul_eq_mul]
  push_cast
  ring

/-- A sum over 50 consecutive blocks is the sum over the first 25 plus the sum over the next 25. -/
theorem halves (B : ℕ → ℝ) :
    (∑ i ∈ Finset.range 25, B i) + (∑ i ∈ Finset.range 25, B (25 + i)) = ∑ t ∈ Finset.range 50, B t :=
  (Finset.sum_range_add B 25 25).symm

end Cert.Law
-- ==== Proof.LibReal.lean ====
/-
  Extended reals that are real numbers: the closure of "is a real number" under the exact operations (sum, product,
  finite sums, the logistic function, a quotient by a non-zero real), the positivity of the logistic function, and the
  real values of a few float words. General lemmas; nothing here mentions a program.
-/
import Idealize.ShloMosaic.PureOps.Ideal
import Idealize.ShloMosaic.PureOps.Ideal.Laws

noncomputable section

open scoped BigOperators

namespace Cert.LibReal

open Idealize.ShloMosaic

/-- An extended real that is (the coercion of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number … -/
theorem IsReal.logistic {x : EReal} (hx : IsReal x) : IsReal (Ideal.logistic x) := by
  obtain ⟨a, rfl⟩ := hx; exact ⟨_, Ideal.logistic_coe a⟩

/-- … and is positive. -/
theorem logistic_pos {x : EReal} (hx : IsReal x) : 0 < Ideal.logistic x := by
  obtain ⟨a, rfl⟩ := hx
  rw [Ideal.logistic_coe]
  have : (0 : ℝ) < (1 + Real.exp (-a))⁻¹ := inv_pos.mpr (by positivity)
  exact_mod_cast this

/-- A quotient of real numbers by a non-zero one is a real number. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := fun h => hne (by rw [h]; rfl)
  rw [Ideal.div_coe hb]
  exact (isReal_coe a).mul (isReal_coe _)

/-- A non-negative real number plus a positive real number is not zero. -/
theorem add_pos_ne_zero {x y : EReal} (hx : 0 ≤ x) (hy : 0 < y) : x + y ≠ 0 :=
  ne_of_gt (lt_of_lt_of_le hy (le_add_of_nonneg_left hx))

/-! ## Float words as real numbers -/

/-- The word of `5.0e4` is the real number 50000. -/
theorem ofBits_50000 : Ideal.ofBits .f32 0x47435000#32 = ((50000 : ℝ) : EReal) := by
  simp [Ideal.ofBits, Ideal.ieee]
  exact_mod_cast (by norm_num : (12800000 : ℝ) * (2 ^ 8)⁻¹ = 50000)

/-- The word of `8.0e5` is the real number 800000. -/
theorem ofBits_800000 : Ideal.ofBits .f32 0x49435000#32 = ((800000 : ℝ) : EReal) := by
  simp [Ideal.ofBits, Ideal.ieee]
  exact_mod_cast (by norm_num : (12800000 : ℝ) * (2 ^ 4)⁻¹ = 800000)

/-- The word of `1.0` is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The word nearest the decimal 1e-6 is a positive real number. -/
theorem ofBits_epsGate : ∃ r : ℝ, 0 < r ∧ Ideal.ofBits .f32 0x358637BD#32 = (r : EReal) := by
  refine ⟨(8796093 : ℝ) * (2 ^ 43)⁻¹, by positivity, ?_⟩
  simp [Ideal.ofBits, Ideal.ieee]

end Cert.LibReal

end
-- ==== Proof.TileValue.lean ====
/-
  One step of the body over tiles of REAL numbers.

  When every entry of the eight normalized tiles is a real number u k r d, the accumulator's new value is the old one plus
  the sum over the tile's 2000 rows r of  (sum over all pairs (k, l) of (c_kl(r) − δ_kl)²) − 8,  where c_kl(r) is the dot
  product of rows r of tiles k and l. The sums of products P(r,p)·P(r,q) over p, q and r that the matrix products
  compute are the sums over r of (Σ_p P(r,p))², and the diagonal, squared-diagonal and doubled off-diagonal parts add up
  to the full double sum minus the 8 ones of the identity: real-number algebra, which needs every entry finite.
-/
import proofs.«147866_j78932908966303_2_alg».proof.Proof.Tile
import proofs.«147866_j78932908966303_2_alg».proof.Proof.Law
import proofs.«147866_j78932908966303_2_alg».proof.Proof.LibReal

set_option maxRecDepth 65536

noncomputable section

open scoped BigOperators
open Idealize.ShloMosaic Idealize.ShloMosaic.TcCoe Idealize.ShloMosaic.ValueIdx

namespace Cert.KernelIdeal.TileValue

open Cert.KernelIdeal Cert.KernelIdeal.Gen Cert.KernelIdeal.Tile

/-- The zero word is the real number 0. -/
theorem word_zero : Scalar.ofBits (F := Ideal) .f32 0x00000000#32 = ((0 : ℝ) : EReal) := by
  show Ideal.ofBits .f32 0x00000000#32 = _
  rw [Ideal.ofBits_zero_f32]; rfl

/-- The word of 2.0 is the real number 2. -/
theorem word_two : Scalar.ofBits (F := Ideal) .f32 0x40000000#32 = ((2 : ℝ) : EReal) := by
  show Ideal.ofBits .f32 0x40000000#32 = _
  simp [Ideal.ofBits, Ideal.ieee]
  exact_mod_cast (by norm_num : (8388608 : ℝ) * (2 ^ 22)⁻¹ = 2)

/-- The correlations of the rows r of the eight real tiles. -/
def corr (u : Fin 8 → Fin 2000 → Fin 128 → ℝ) (r : Fin 2000) (k l : Fin 8) : ℝ := ∑ d : Fin 128, u k r d * u l r d

theorem corr_symm (u : Fin 8 → Fin 2000 → Fin 128 → ℝ) (r : Fin 2000) (k l : Fin 8) : corr u r k l = corr u r l k :=
  Finset.sum_congr rfl fun d _ => mul_comm _ _

/-- The tile's contribution: over its rows, the squared distance of the correlation matrix to the identity, less 8. -/
def tileSum (u : Fin 8 → Fin 2000 → Fin 128 → ℝ) : ℝ := ∑ r : Fin 2000, (Cert.Law.nodeRef (corr u r) - 8)

theorem step_real (N : Fin 8 → Tl) (u : Fin 8 → Fin 2000 → Fin 128 → ℝ)
    (hN : ∀ k r d, N k (ix2 r d) = ((u k r d : ℝ) : EReal)) (acc : Vec Ideal S1x1 .f32) (a : ℝ)
    (hacc : acc (ix2 (0 : Fin 1) (0 : Fin 1)) = ((a : ℝ) : EReal)) :
    stepSpec (N 0) (N 1) (N 2) (N 3) (N 4) (N 5) (N 6) (N 7) acc (ix2 (0 : Fin 1) (0 : Fin 1)) = ((a + tileSum u : ℝ) : EReal) := by
  unfold stepSpec
  rw [shapeCast_self]
  simp only [addf_apply, subf_apply, mulf_apply, broadcast_apply, colTot_apply, rowDots_apply, pair11_apply, hN, hacc,
    word_zero, word_two]
  simp only [← EReal.coe_mul, ← Cert.LibReal.coe_sum, ← EReal.coe_add, ← EReal.coe_sub]
  have hg : ∀ k l : Fin 8,
      (∑ p : Fin 128, ∑ q : Fin 128, ∑ r : Fin 2000, u k r p * u l r p * (u k r q * u l r q))
        = ∑ r : Fin 2000, corr u r k l * corr u r k l :=
    fun k l => Cert.Law.gram_sum (fun r p => u k r p * u l r p)
  simp only [hg]
  exact congrArg (fun x : ℝ => ((a + x : ℝ) : EReal)) (Cert.Law.tile_eq (corr u) (corr_symm u))

end Cert.KernelIdeal.TileValue

end
-- ==== Proof.Spec.lean ====
/-
  The Barlow-Twins diversity loss of eight heads, on the extended reals.

  Eight matrices X 0 … X 7 of shape [100000, 128] hold, row n of X k, the output of head k at node n. Each row is divided
  by its clamped length, max (sqrt (sum of the row's squares)) eps, eps the extended real the word 0x322BCC77 denotes; the
  correlation of heads k and l at node n is the dot product of the two normalized rows; the loss is the sum over nodes and
  over pairs (k, l) of the squared distance of that correlation to the identity matrix's entry, divided by the word of
  100000. Stated over the extended reals with exact operations, so a sum has no order and no rounding.
-/
import Idealize.ShloMosaic.Lib.ValueIdx
import Idealize.ShloMosaic.PureOps.Ideal.Laws

noncomputable section

open scoped BigOperators

namespace Cert.Spec

open Idealize.ShloMosaic Idealize.ShloMosaic.ValueIdx

/-- The contents of one head's array: an extended real at every index of [100000, 128]. -/
abbrev Mat : Type := (⟨2, ![100000, 128]⟩ : Shape).Idx → EReal

/-- Entry (n, d) of a matrix divided by the clamped length of its row n. -/
def unitE (x : Mat) (n : Fin 100000) (d : Fin 128) : EReal :=
  Ideal.div (x (ix2 n d))
    (max (Ideal.sqrt (∑ j : Fin 128, x (ix2 n j) * x (ix2 n j))) (Ideal.ofBits .f32 0x322BCC77#32))

/-- The correlation of heads k and l at node n: the dot product of their normalized rows. -/
def corrE (X : Fin 8 → Mat) (n : Fin 100000) (k l : Fin 8) : EReal :=
  ∑ d : Fin 128, unitE (X k) n d * unitE (X l) n d

/-- The identity matrix's entry (k, l). -/
def deltaE (k l : Fin 8) : EReal := ((if k = l then (1 : ℝ) else 0 : ℝ) : EReal)

/-- The sum over nodes and pairs of heads of the squared distance of the correlation to the identity. -/
def totalE (X : Fin 8 → Mat) : EReal :=
  ∑ n : Fin 100000, ∑ k : Fin 8, ∑ l : Fin 8, (corrE X n k l - deltaE k l) * (corrE X n k l - deltaE k l)

/-- The loss: that sum over the word of 100000. -/
def lossE (X : Fin 8 → Mat) : EReal := Ideal.div (totalE X) (Ideal.ofBits .f32 0x47C35000#32)

end Cert.Spec

end
-- ==== Proof.LibRowNormalize.lean ====
/-
  THE ROWS OF A MATRIX DIVIDED BY THEIR CLAMPED LENGTHS, READ AT AN INDEX, over generic extents.

  A body that L2-normalises the rows of an [a, d] matrix X writes: the squares X * X, their sum along the second axis (a
  vector of a sums), that vector cast to a column [a, 1], its square root, the maximum with a splat constant eps (so that a
  zero row is not divided by zero), the column stretched back over [a, d], and the quotient of X by it. Read at the
  extended reals at (i, k) this is

      X (i, k) / max (sqrt (sum over j of X (i, j) * X (i, j))) eps

  where the sum has no rounding and no order, the square root and the quotient are the extended reals' ones, and eps is
  the extended real the constant's word denotes. Each layout step is read at an index written by its coordinates: the sum
  along the second axis at i is the sum over the row i; a vector cast to a column reads its entry; a column stretched over
  the matrix reads the column's entry of that row.
-/
import Idealize.ShloMosaic.Lib.ValueIdx
import Idealize.ShloMosaic.Lib.Pipeline.Value
import Idealize.ShloMosaic.PureOps.Ideal.Laws

noncomputable section

open scoped BigOperators

namespace Idealize.ShloMosaic.RowNormalize

open Idealize.ShloMosaic Idealize.ShloMosaic.ValueIdx

section Layout
variable {α : Type}

/-- A column [a, 1] stretched over [a, b] by a vector broadcast reads, at (i, j), the column at (i, 0). -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector [a] cast to the column [a, 1] reads, at (i, u), the vector at i, whatever the unit coordinate u. -/
theorem shapeCast_vec_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- For a sum along the second axis of [a, d], the source index over the result index i with coordinate k on the summed
    axis is (i, k). -/
theorem lift_row {a d : ℕ} (h : (⟨2, ![a, d]⟩ : Shape).Reduces [1] ⟨1, ![a]⟩) (i : Fin a) (k : Fin d) :
    h.lift (ix1 i) k = ix2 i k := by
  funext c
  apply Fin.ext
  show Shape.Reduces.liftVal h (ix1 i) k.val c = (ix2 i k c).val
  unfold Shape.Reduces.liftVal
  match c with
  | ⟨0, _⟩ => rfl
  | ⟨1, _⟩ => rfl

end Layout

/-! ## The sum of a row's squares, and the row divided by its clamped length -/

section Rows
variable {a d : ℕ}

/-- The sum along the second axis of a matrix, read at i at the extended reals: the sum over the row i. -/
theorem rowSum_apply (Y : FVec Ideal ⟨2, ![a, d]⟩ .f32) (h : (⟨2, ![a, d]⟩ : Shape).Reduces [1] ⟨1, ![a]⟩)
    (hφ : FKind.Formats .f32) (hacc : (0x00000000#32 : BitVec 32) = FKind.add.neutral .f32 hφ) (i : Fin a) :
    multiReduction .add [1] ⟨1, ![a]⟩ Y 0x00000000#32 h hφ hacc (ix1 i) = ∑ k : Fin d, Y (ix2 i k) :=
  (Ideal.multiReduction_add_single Y 0x00000000#32 h hφ hacc (ix1 i)).trans
    (Finset.sum_congr rfl fun k _ => congrArg Y (lift_row h i k))

/-- The rows of X divided by their clamped lengths, as a body spells it with vector operations: the squares, their sum
    along the second axis, the cast to a column, the square root, the maximum with the splat of the word e, the column
    stretched over the matrix, the quotient. -/
def normalizeRows (X : FVec Ideal ⟨2, ![a, d]⟩ .f32) (e : BitVec 32)
    (hr : (⟨2, ![a, d]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, d]⟩) :
    FVec Ideal ⟨2, ![a, d]⟩ .f32 :=
  divf X (broadcastTo ⟨2, ![a, d]⟩
    (maximumf (sqrt (shapeCast ⟨2, ![a, 1]⟩ (multiReduction .add [1] ⟨1, ![a]⟩ (mulf X X) 0x00000000#32 hr hφ hacc) hc))
      (broadcast ⟨2, ![a, 1]⟩ (Scalar.ofBits (F := Ideal) .f32 e))) hb)

/-- Read at (i, k): the entry over the larger of the square root of the sum of the row's squares and the extended real
    the word e denotes. -/
theorem normalizeRows_apply (X : FVec Ideal ⟨2, ![a, d]⟩ .f32) (e : BitVec 32)
    (hr : (⟨2, ![a, d]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, d]⟩)
    (i : Fin a) (k : Fin d) :
    normalizeRows X e hr hφ hacc hc hb (ix2 i k)
      = Ideal.div (X (ix2 i k)) (max (Ideal.sqrt (∑ j : Fin d, X (ix2 i j) * X (ix2 i j))) (Ideal.ofBits .f32 e)) := by
  unfold normalizeRows
  refine (divf_apply _ _ _).trans ?_
  refine congrArg (Ideal.div (X (ix2 i k))) ?_
  refine (broadcastTo_col_apply _ hb i k).trans ?_
  refine (maximumf_apply _ _ _).trans ?_
  refine congrArg (max · (Ideal.ofBits .f32 e)) ?_
  show Ideal.sqrt (shapeCast ⟨2, ![a, 1]⟩ (multiReduction .add [1] ⟨1, ![a]⟩ (mulf X X) 0x00000000#32 hr hφ hacc) hc
    (ix2 i (0 : Fin 1))) = _
  refine congrArg Ideal.sqrt ?_
  refine (shapeCast_vec_col_apply _ hc i 0).trans ?_
  exact rowSum_apply (mulf X X) hr hφ hacc i

end Rows

end Idealize.ShloMosaic.RowNormalize

end
-- ==== Proof.BlockRead.lean ====
/-
  The blocks the body reads, as rows of the eight heads' arrays, and each head's normalized tile as the specification's
  normalized rows.

  Each head's array [100000, 128] is cut into 50 blocks of 2000 rows; the grid has 2 x 25 points, and at the point
  (i0, i1), numbered t = 25 i0 + i1, every head's block is block row 25 i0 + i1 = t of its array. So entry (r, d) of
  head K's block at point t is entry (2000 t + r, d) of head K's array. The body divides each row of a block by its
  clamped length, max (sqrt (sum of the row's squares)) eps; since a row of the block is a whole row of the array, entry
  (r, d) of the normalized block is the specification's normalized entry (2000 t + r, d) of the array.
-/
import proofs.«147866_j78932908966303_2_alg».proof.Proof.Pieces
import proofs.«147866_j78932908966303_2_alg».proof.Proof.Spec
import proofs.«147866_j78932908966303_2_alg».proof.Proof.LibRowNormalize
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.ShloMosaic.ValueIdx

namespace Cert.KernelIdeal.BlockRead

open Cert.KernelIdeal Cert.KernelIdeal.Gen

/-- Row r of block t, as a row of the array: 2000 t + r. -/
def row (t : Fin cfg0.N) (r : Fin 2000) : Fin 100000 :=
  ⟨2000 * t.val + r.val, by have := t.isLt; have := r.isLt; have hN : cfg0.N = 50 := N_0; omega⟩

theorem row_val (t : Fin cfg0.N) (r : Fin 2000) : (row t r).val = 2000 * t.val + r.val := rfl

/-! ## Which block each point reads: block row t, block column 0, decided once over the 50 points -/

/-- Head 0's block at point t is block (t, 0) of its array. -/
theorem index_0 : ∀ t : Fin cfg0.N, win0_0.index t (0 : Fin 2) = t.val ∧ win0_0.index t 1 = 0 :=
  (by decide +kernel : ∀ t : Fin grid0.N, win0_0.index t (0 : Fin 2) = t.val ∧ win0_0.index t 1 = 0)

/-- Head 1's block at point t is block (t, 0) of its array. -/
theorem index_1 : ∀ t : Fin cfg0.N, win0_1.index t (0 : Fin 2) = t.val ∧ win0_1.index t 1 = 0 :=
  (by decide +kernel : ∀ t : Fin grid0.N, win0_1.index t (0 : Fin 2) = t.val ∧ win0_1.index t 1 = 0)

/-- Head 2's block at point t is block (t, 0) of its array. -/
theorem index_2 : ∀ t : Fin cfg0.N, win0_2.index t (0 : Fin 2) = t.val ∧ win0_2.index t 1 = 0 :=
  (by decide +kernel : ∀ t : Fin grid0.N, win0_2.index t (0 : Fin 2) = t.val ∧ win0_2.index t 1 = 0)

/-- Head 3's block at point t is block (t, 0) of its array. -/
theorem index_3 : ∀ t : Fin cfg0.N, win0_3.index t (0 : Fin 2) = t.val ∧ win0_3.index t 1 = 0 :=
  (by decide +kernel : ∀ t : Fin grid0.N, win0_3.index t (0 : Fin 2) = t.val ∧ win0_3.index t 1 = 0)

/-- Head 4's block at point t is block (t, 0) of its array. -/
theorem index_4 : ∀ t : Fin cfg0.N, win0_4.index t (0 : Fin 2) = t.val ∧ win0_4.index t 1 = 0 :=
  (by decide +kernel : ∀ t : Fin grid0.N, win0_4.index t (0 : Fin 2) = t.val ∧ win0_4.index t 1 = 0)

/-- Head 5's block at point t is block (t, 0) of its array. -/
theorem index_5 : ∀ t : Fin cfg0.N, win0_5.index t (0 : Fin 2) = t.val ∧ win0_5.index t 1 = 0 :=
  (by decide +kernel : ∀ t : Fin grid0.N, win0_5.index t (0 : Fin 2) = t.val ∧ win0_5.index t 1 = 0)

/-- Head 6's block at point t is block (t, 0) of its array. -/
theorem index_6 : ∀ t : Fin cfg0.N, win0_6.index t (0 : Fin 2) = t.val ∧ win0_6.index t 1 = 0 :=
  (by decide +kernel : ∀ t : Fin grid0.N, win0_6.index t (0 : Fin 2) = t.val ∧ win0_6.index t 1 = 0)

/-- Head 7's block at point t is block (t, 0) of its array. -/
theorem index_7 : ∀ t : Fin cfg0.N, win0_7.index t (0 : Fin 2) = t.val ∧ win0_7.index t 1 = 0 :=
  (by decide +kernel : ∀ t : Fin grid0.N, win0_7.index t (0 : Fin 2) = t.val ∧ win0_7.index t 1 = 0)

/-! ## A block's entry is the array's: a coordinate of the array is block index × block extent + 1 × the coordinate inside the block -/

section Blocks
variable {F : FTy → Type} [FloatOps F]
variable (m : (ℓ : Loc nD τ sig) → Buf (Elt F) ℓ)

/-- Entry (r, d) of head 0's block at point t is entry (2000 t + r, d) of head 0's array. -/
theorem iblk_apply_0 (c : Dev nD) (t : Fin cfg0.N) (r : Fin 2000) (d : Fin 128) :
    (iblk m c 0 t : Vec F S2000x128 .f32) (ix2 r d)
      = m ((c.tc : Thread nD τ).loc main_arg0) (ix2 (row t r) d) := by
  have hi := index_0 t
  unfold iblk
  rw [View.read_apply]
  show V m c main_arg0 _ = m (c.tc.loc main_arg0) _
  unfold V
  congr 1
  funext a
  apply Fin.ext
  match a with
  | ⟨0, _⟩ => show win0_0.index t 0 * 2000 + 1 * r.val = 2000 * t.val + r.val; rw [hi.1]; omega
  | ⟨1, _⟩ => show win0_0.index t 1 * 128 + 1 * d.val = d.val; rw [hi.2]; omega

/-- Entry (r, d) of head 1's block at point t is entry (2000 t + r, d) of head 1's array. -/
theorem iblk_apply_1 (c : Dev nD) (t : Fin cfg0.N) (r : Fin 2000) (d : Fin 128) :
    (iblk m c 1 t : Vec F S2000x128 .f32) (ix2 r d)
      = m ((c.tc : Thread nD τ).loc main_arg1) (ix2 (row t r) d) := by
  have hi := index_1 t
  unfold iblk
  rw [View.read_apply]
  show V m c main_arg1 _ = m (c.tc.loc main_arg1) _
  unfold V
  congr 1
  funext a
  apply Fin.ext
  match a with
  | ⟨0, _⟩ => show win0_1.index t 0 * 2000 + 1 * r.val = 2000 * t.val + r.val; rw [hi.1]; omega
  | ⟨1, _⟩ => show win0_1.index t 1 * 128 + 1 * d.val = d.val; rw [hi.2]; omega

/-- Entry (r, d) of head 2's block at point t is entry (2000 t + r, d) of head 2's array. -/
theorem iblk_apply_2 (c : Dev nD) (t : Fin cfg0.N) (r : Fin 2000) (d : Fin 128) :
    (iblk m c 2 t : Vec F S2000x128 .f32) (ix2 r d)
      = m ((c.tc : Thread nD τ).loc main_arg2) (ix2 (row t r) d) := by
  have hi := index_2 t
  unfold iblk
  rw [View.read_apply]
  show V m c main_arg2 _ = m (c.tc.loc main_arg2) _
  unfold V
  congr 1
  funext a
  apply Fin.ext
  match a with
  | ⟨0, _⟩ => show win0_2.index t 0 * 2000 + 1 * r.val = 2000 * t.val + r.val; rw [hi.1]; omega
  | ⟨1, _⟩ => show win0_2.index t 1 * 128 + 1 * d.val = d.val; rw [hi.2]; omega

/-- Entry (r, d) of head 3's block at point t is entry (2000 t + r, d) of head 3's array. -/
theorem iblk_apply_3 (c : Dev nD) (t : Fin cfg0.N) (r : Fin 2000) (d : Fin 128) :
    (iblk m c 3 t : Vec F S2000x128 .f32) (ix2 r d)
      = m ((c.tc : Thread nD τ).loc main_arg3) (ix2 (row t r) d) := by
  have hi := index_3 t
  unfold iblk
  rw [View.read_apply]
  show V m c main_arg3 _ = m (c.tc.loc main_arg3) _
  unfold V
  congr 1
  funext a
  apply Fin.ext
  match a with
  | ⟨0, _⟩ => show win0_3.index t 0 * 2000 + 1 * r.val = 2000 * t.val + r.val; rw [hi.1]; omega
  | ⟨1, _⟩ => show win0_3.index t 1 * 128 + 1 * d.val = d.val; rw [hi.2]; omega

/-- Entry (r, d) of head 4's block at point t is entry (2000 t + r, d) of head 4's array. -/
theorem iblk_apply_4 (c : Dev nD) (t : Fin cfg0.N) (r : Fin 2000) (d : Fin 128) :
    (iblk m c 4 t : Vec F S2000x128 .f32) (ix2 r d)
      = m ((c.tc : Thread nD τ).loc main_arg4) (ix2 (row t r) d) := by
  have hi := index_4 t
  unfold iblk
  rw [View.read_apply]
  show V m c main_arg4 _ = m (c.tc.loc main_arg4) _
  unfold V
  congr 1
  funext a
  apply Fin.ext
  match a with
  | ⟨0, _⟩ => show win0_4.index t 0 * 2000 + 1 * r.val = 2000 * t.val + r.val; rw [hi.1]; omega
  | ⟨1, _⟩ => show win0_4.index t 1 * 128 + 1 * d.val = d.val; rw [hi.2]; omega

/-- Entry (r, d) of head 5's block at point t is entry (2000 t + r, d) of head 5's array. -/
theorem iblk_apply_5 (c : Dev nD) (t : Fin cfg0.N) (r : Fin 2000) (d : Fin 128) :
    (iblk m c 5 t : Vec F S2000x128 .f32) (ix2 r d)
      = m ((c.tc : Thread nD τ).loc main_arg5) (ix2 (row t r) d) := by
  have hi := index_5 t
  unfold iblk
  rw [View.read_apply]
  show V m c main_arg5 _ = m (c.tc.loc main_arg5) _
  unfold V
  congr 1
  funext a
  apply Fin.ext
  match a with
  | ⟨0, _⟩ => show win0_5.index t 0 * 2000 + 1 * r.val = 2000 * t.val + r.val; rw [hi.1]; omega
  | ⟨1, _⟩ => show win0_5.index t 1 * 128 + 1 * d.val = d.val; rw [hi.2]; omega

/-- Entry (r, d) of head 6's block at point t is entry (2000 t + r, d) of head 6's array. -/
theorem iblk_apply_6 (c : Dev nD) (t : Fin cfg0.N) (r : Fin 2000) (d : Fin 128) :
    (iblk m c 6 t : Vec F S2000x128 .f32) (ix2 r d)
      = m ((c.tc : Thread nD τ).loc main_arg6) (ix2 (row t r) d) := by
  have hi := index_6 t
  unfold iblk
  rw [View.read_apply]
  show V m c main_arg6 _ = m (c.tc.loc main_arg6) _
  unfold V
  congr 1
  funext a
  apply Fin.ext
  match a with
  | ⟨0, _⟩ => show win0_6.index t 0 * 2000 + 1 * r.val = 2000 * t.val + r.val; rw [hi.1]; omega
  | ⟨1, _⟩ => show win0_6.index t 1 * 128 + 1 * d.val = d.val; rw [hi.2]; omega

/-- Entry (r, d) of head 7's block at point t is entry (2000 t + r, d) of head 7's array. -/
theorem iblk_apply_7 (c : Dev nD) (t : Fin cfg0.N) (r : Fin 2000) (d : Fin 128) :
    (iblk m c 7 t : Vec F S2000x128 .f32) (ix2 r d)
      = m ((c.tc : Thread nD τ).loc main_arg7) (ix2 (row t r) d) := by
  have hi := index_7 t
  unfold iblk
  rw [View.read_apply]
  show V m c main_arg7 _ = m (c.tc.loc main_arg7) _
  unfold V
  congr 1
  funext a
  apply Fin.ext
  match a with
  | ⟨0, _⟩ => show win0_7.index t 0 * 2000 + 1 * r.val = 2000 * t.val + r.val; rw [hi.1]; omega
  | ⟨1, _⟩ => show win0_7.index t 1 * 128 + 1 * d.val = d.val; rw [hi.2]; omega

end Blocks

/-! ## The rows of a tile divided by their clamped lengths -/

/-- The word of the clamp eps. -/
abbrev epsW : BitVec 32 := 0x322BCC77#32

/-- The rows of a [2000, 128] tile divided by their clamped lengths, spelled with vector operations. -/
abbrev unitRows (X : FVec Ideal S2000x128 .f32) : FVec Ideal S2000x128 .f32 :=
  RowNormalize.normalizeRows X epsW reduces_S2000x128_S2000 (.inl rfl) rfl shapeCasts_S2000_S2000x1
    broadcasts_S2000x1_S2000x128

/-- The body's normalization of head 0's tile is the rows divided by their clamped lengths. -/
theorem pay4_eq (X : FVec Ideal S2000x128 .f32) : k0_pay4 X = unitRows X := rfl

/-- The body's normalization of head 1's tile is the rows divided by their clamped lengths. -/
theorem pay5_eq (X : FVec Ideal S2000x128 .f32) : k0_pay5 X = unitRows X := rfl

/-- The body's normalization of head 2's tile is the rows divided by their clamped lengths (the clamped lengths computed first, the quotient after). -/
theorem pay7_eq (X : FVec Ideal S2000x128 .f32) : k0_pay7 X (k0_pay6 X) = unitRows X := rfl

/-- The body's normalization of head 3's tile is the rows divided by their clamped lengths. -/
theorem pay8_eq (X : FVec Ideal S2000x128 .f32) : k0_pay8 X = unitRows X := rfl

/-- The body's normalization of head 4's tile is the rows divided by their clamped lengths. -/
theorem pay9_eq (X : FVec Ideal S2000x128 .f32) : k0_pay9 X = unitRows X := rfl

/-- The body's normalization of head 5's tile is the rows divided by their clamped lengths. -/
theorem pay10_eq (X : FVec Ideal S2000x128 .f32) : k0_pay10 X = unitRows X := rfl

/-- The body's normalization of head 6's tile is the rows divided by their clamped lengths. -/
theorem pay11_eq (X : FVec Ideal S2000x128 .f32) : k0_pay11 X = unitRows X := rfl

/-- The body's normalization of head 7's tile is the rows divided by their clamped lengths. -/
theorem pay12_eq (X : FVec Ideal S2000x128 .f32) : k0_pay12 X = unitRows X := rfl

/-- Read at (r, d): the entry over the larger of the square root of the sum of the row's squares and eps. -/
theorem unitRows_apply (X : FVec Ideal S2000x128 .f32) (r : Fin 2000) (d : Fin 128) :
    unitRows X (ix2 r d)
      = Ideal.div (X (ix2 r d))
          (max (Ideal.sqrt (∑ j : Fin 128, X (ix2 r j) * X (ix2 r j))) (Ideal.ofBits .f32 epsW)) :=
  RowNormalize.normalizeRows_apply X epsW _ _ _ _ _ r d

/-- A tile whose row r is row 2000 t + r of a matrix A: its normalized entry (r, d) is the normalized entry
    (2000 t + r, d) of A, because the row's squares summed are the same 128 squares. -/
theorem unitRows_of_rows (X : FVec Ideal S2000x128 .f32) (A : Cert.Spec.Mat) (t : Fin cfg0.N)
    (hX : ∀ (r : Fin 2000) (d : Fin 128), X (ix2 r d) = A (ix2 (row t r) d)) (r : Fin 2000) (d : Fin 128) :
    unitRows X (ix2 r d) = Cert.Spec.unitE A (row t r) d := by
  refine (unitRows_apply X r d).trans ?_
  unfold Cert.Spec.unitE
  rw [hX r d, Finset.sum_congr rfl fun j _ => by rw [hX r j]]

/-! ## Each head's normalized tile at a point is the specification's normalized rows of its array -/

section Units
variable (m : (ℓ : Loc nD τ sig) → Buf (Elt Ideal) ℓ)

/-- Entry (r, d) of head 0's normalized tile at point t is the normalized entry (2000 t + r, d) of head 0's array. -/
theorem norm_apply_0 (c : Dev nD) (t : Fin cfg0.N) (r : Fin 2000) (d : Fin 128) :
    (k0_pay4 (F := Ideal) (iblk m c 0 t)) (ix2 r d)
      = Cert.Spec.unitE (m ((c.tc : Thread nD τ).loc main_arg0)) (row t r) d :=
  (congrFun (pay4_eq (iblk m c 0 t)) (ix2 r d)).trans
    (unitRows_of_rows (iblk m c 0 t) (m ((c.tc : Thread nD τ).loc main_arg0)) t (iblk_apply_0 m c t) r d)

/-- Entry (r, d) of head 1's normalized tile at point t is the normalized entry (2000 t + r, d) of head 1's array. -/
theorem norm_apply_1 (c : Dev nD) (t : Fin cfg0.N) (r : Fin 2000) (d : Fin 128) :
    (k0_pay5 (F := Ideal) (iblk m c 1 t)) (ix2 r d)
      = Cert.Spec.unitE (m ((c.tc : Thread nD τ).loc main_arg1)) (row t r) d :=
  (congrFun (pay5_eq (iblk m c 1 t)) (ix2 r d)).trans
    (unitRows_of_rows (iblk m c 1 t) (m ((c.tc : Thread nD τ).loc main_arg1)) t (iblk_apply_1 m c t) r d)

/-- Entry (r, d) of head 2's normalized tile at point t is the normalized entry (2000 t + r, d) of head 2's array. -/
theorem norm_apply_2 (c : Dev nD) (t : Fin cfg0.N) (r : Fin 2000) (d : Fin 128) :
    (k0_pay7 (F := Ideal) (iblk m c 2 t) (k0_pay6 (iblk m c 2 t))) (ix2 r d)
      = Cert.Spec.unitE (m ((c.tc : Thread nD τ).loc main_arg2)) (row t r) d :=
  (congrFun (pay7_eq (iblk m c 2 t)) (ix2 r d)).trans
    (unitRows_of_rows (iblk m c 2 t) (m ((c.tc : Thread nD τ).loc main_arg2)) t (iblk_apply_2 m c t) r d)

/-- Entry (r, d) of head 3's normalized tile at point t is the normalized entry (2000 t + r, d) of head 3's array. -/
theorem norm_apply_3 (c : Dev nD) (t : Fin cfg0.N) (r : Fin 2000) (d : Fin 128) :
    (k0_pay8 (F := Ideal) (iblk m c 3 t)) (ix2 r d)
      = Cert.Spec.unitE (m ((c.tc : Thread nD τ).loc main_arg3)) (row t r) d :=
  (congrFun (pay8_eq (iblk m c 3 t)) (ix2 r d)).trans
    (unitRows_of_rows (iblk m c 3 t) (m ((c.tc : Thread nD τ).loc main_arg3)) t (iblk_apply_3 m c t) r d)

/-- Entry (r, d) of head 4's normalized tile at point t is the normalized entry (2000 t + r, d) of head 4's array. -/
theorem norm_apply_4 (c : Dev nD) (t : Fin cfg0.N) (r : Fin 2000) (d : Fin 128) :
    (k0_pay9 (F := Ideal) (iblk m c 4 t)) (ix2 r d)
      = Cert.Spec.unitE (m ((c.tc : Thread nD τ).loc main_arg4)) (row t r) d :=
  (congrFun (pay9_eq (iblk m c 4 t)) (ix2 r d)).trans
    (unitRows_of_rows (iblk m c 4 t) (m ((c.tc : Thread nD τ).loc main_arg4)) t (iblk_apply_4 m c t) r d)

/-- Entry (r, d) of head 5's normalized tile at point t is the normalized entry (2000 t + r, d) of head 5's array. -/
theorem norm_apply_5 (c : Dev nD) (t : Fin cfg0.N) (r : Fin 2000) (d : Fin 128) :
    (k0_pay10 (F := Ideal) (iblk m c 5 t)) (ix2 r d)
      = Cert.Spec.unitE (m ((c.tc : Thread nD τ).loc main_arg5)) (row t r) d :=
  (congrFun (pay10_eq (iblk m c 5 t)) (ix2 r d)).trans
    (unitRows_of_rows (iblk m c 5 t) (m ((c.tc : Thread nD τ).loc main_arg5)) t (iblk_apply_5 m c t) r d)

/-- Entry (r, d) of head 6's normalized tile at point t is the normalized entry (2000 t + r, d) of head 6's array. -/
theorem norm_apply_6 (c : Dev nD) (t : Fin cfg0.N) (r : Fin 2000) (d : Fin 128) :
    (k0_pay11 (F := Ideal) (iblk m c 6 t)) (ix2 r d)
      = Cert.Spec.unitE (m ((c.tc : Thread nD τ).loc main_arg6)) (row t r) d :=
  (congrFun (pay11_eq (iblk m c 6 t)) (ix2 r d)).trans
    (unitRows_of_rows (iblk m c 6 t) (m ((c.tc : Thread nD τ).loc main_arg6)) t (iblk_apply_6 m c t) r d)

/-- Entry (r, d) of head 7's normalized tile at point t is the normalized entry (2000 t + r, d) of head 7's array. -/
theorem norm_apply_7 (c : Dev nD) (t : Fin cfg0.N) (r : Fin 2000) (d : Fin 128) :
    (k0_pay12 (F := Ideal) (iblk m c 7 t)) (ix2 r d)
      = Cert.Spec.unitE (m ((c.tc : Thread nD τ).loc main_arg7)) (row t r) d :=
  (congrFun (pay12_eq (iblk m c 7 t)) (ix2 r d)).trans
    (unitRows_of_rows (iblk m c 7 t) (m ((c.tc : Thread nD τ).loc main_arg7)) t (iblk_apply_7 m c t) r d)

end Units

end Cert.KernelIdeal.BlockRead

end
-- ==== Proof.Totals.lean ====
/-
  From the tiles to the whole: real-number bookkeeping.

  Node n of 100000 contributes nodeVal n, the squared distance of its 8x8 correlation matrix to the identity. Tile t holds
  the 2000 nodes 2000·t … 2000·t + 1999 and contributes tileVal t, the sum of (nodeVal − 8) over them. The accumulator
  restarts from 0 at the first tile of each half (t a multiple of 25) and otherwise adds the tile to what the tile before
  left; after the last tile of half h it holds the sum of that half's 25 tiles. The two halves together, plus 800000 =
  8 · 100000, are the sum of nodeVal over all nodes.
-/
import proofs.«147866_j78932908966303_2_alg».proof.Proof.Law

noncomputable section

open scoped BigOperators
open Finset

namespace Cert.Totals

variable (g : Fin 8 → ℕ → Fin 128 → ℝ)

/-- Node n's squared distance of the correlation matrix of its eight rows to the identity. -/
def nodeVal (n : ℕ) : ℝ := Cert.Law.nodeRef (fun k l => ∑ d : Fin 128, g k n d * g l n d)

/-- Tile t's contribution. -/
def tileVal (t : ℕ) : ℝ := ∑ r : Fin 2000, (nodeVal g (2000 * t + r.val) - 8)

/-- The accumulator after tile n. -/
def accVal : ℕ → ℝ
  | 0 => 0 + tileVal g 0
  | n + 1 => (if (n + 1) % 25 = 0 then 0 else accVal n) + tileVal g (n + 1)

theorem accVal_start (n : ℕ) (h : n % 25 = 0) : accVal g n = 0 + tileVal g n := by
  cases n with
  | zero => rfl
  | succ n => show (if (n + 1) % 25 = 0 then 0 else accVal g n) + _ = _; rw [if_pos h]

theorem accVal_step (n : ℕ) (h : ¬(n + 1) % 25 = 0) : accVal g (n + 1) = accVal g n + tileVal g (n + 1) := by
  show (if (n + 1) % 25 = 0 then 0 else accVal g n) + _ = _; rw [if_neg h]

/-- After tile i of half h the accumulator holds the sum of that half's tiles 0 … i. -/
theorem accVal_half (h i : ℕ) (hi : i < 25) :
    accVal g (25 * h + i) = ∑ s ∈ range (i + 1), tileVal g (25 * h + s) := by
  induction i with
  | zero =>
    rw [accVal_start g (25 * h + 0) (by omega), zero_add, Finset.sum_range_one]
  | succ i ih =>
    rw [show 25 * h + (i + 1) = (25 * h + i) + 1 from rfl, accVal_step g (25 * h + i) (by omega), ih (by omega),
      Finset.sum_range_succ _ (i + 1)]
    rfl

/-- The two halves' final accumulators, from zero, plus 800000: the sum over all nodes. -/
theorem kernel_total :
    (0 + (accVal g 24 + accVal g 49)) + 800000 = ∑ n : Fin 100000, nodeVal g n.val := by
  have h0 : accVal g 24 = ∑ s ∈ range 25, tileVal g s := by
    have := accVal_half g 0 24 (by omega)
    simpa using this
  have h1 : accVal g 49 = ∑ s ∈ range 25, tileVal g (25 + s) := by
    have := accVal_half g 1 24 (by omega)
    simpa using this
  rw [h0, h1, zero_add, Cert.Law.halves (tileVal g)]
  exact Cert.Law.tiles_total (nodeVal g)

end Cert.Totals

end
-- ==== Proof.StepValue.lean ====
/-
  One step of the body at a grid point, as a real number. At point t the eight input blocks are the rows
  2000·t … 2000·t + 1999 of the eight argument arrays; when every normalized entry of those arrays is a real number
  g k n d, a step from an accumulator holding the real a leaves  a + tileVal g t.
-/
import proofs.«147866_j78932908966303_2_alg».proof.Proof.TileValue
import proofs.«147866_j78932908966303_2_alg».proof.Proof.BlockRead
import proofs.«147866_j78932908966303_2_alg».proof.Proof.Totals

set_option maxRecDepth 65536

noncomputable section

open scoped BigOperators
open Idealize.ShloMosaic Idealize.ShloMosaic.TcCoe Idealize.ShloMosaic.ValueIdx Idealize.SL.Sem

namespace Cert.KernelIdeal.StepValue

open Cert.KernelIdeal Cert.KernelIdeal.Gen Cert.KernelIdeal.Pieces Cert.KernelIdeal.Tile Cert.KernelIdeal.TileValue
  Cert.KernelIdeal.BlockRead

variable (m : (ℓ : Loc nD τ sig) → Buf (Elt Ideal) ℓ)

/-- The eight argument arrays on device c. -/
def heads (c : Dev nD) : Fin 8 → Cert.Spec.Mat :=
  ![m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7)]

/-- The eight normalized tiles at point t. -/
def tiles (c : Dev nD) (t : Fin cfg0.N) : Fin 8 → Tl :=
  ![k0_pay4 (iblk m c 0 t),
    k0_pay5 (iblk m c 1 t),
    k0_pay7 (iblk m c 2 t) (k0_pay6 (iblk m c 2 t)),
    k0_pay8 (iblk m c 3 t),
    k0_pay9 (iblk m c 4 t),
    k0_pay10 (iblk m c 5 t),
    k0_pay11 (iblk m c 6 t),
    k0_pay12 (iblk m c 7 t)]

/-- Their entries are the normalized entries of the argument arrays at the tile's rows. -/
theorem tiles_apply (c : Dev nD) (t : Fin cfg0.N) (k : Fin 8) (r : Fin 2000) (d : Fin 128) :
    tiles m c t k (ix2 r d) = Cert.Spec.unitE (heads m c k) (row t r) d := by
  fin_cases k
  · exact norm_apply_0 m c t r d
  · exact norm_apply_1 m c t r d
  · exact norm_apply_2 m c t r d
  · exact norm_apply_3 m c t r d
  · exact norm_apply_4 m c t r d
  · exact norm_apply_5 m c t r d
  · exact norm_apply_6 m c t r d
  · exact norm_apply_7 m c t r d

/-- The accumulator's starting contents hold the real number 0. -/
theorem zeroAcc_value : (zeroAcc (F := Ideal)) (ix2 (0 : Fin 1) (0 : Fin 1)) = ((0 : ℝ) : EReal) := by
  show k0_pay3 (F := Ideal) (ix2 (0 : Fin 1) (0 : Fin 1)) = _
  unfold k0_pay3
  rw [shapeCast_self]
  exact word_zero

theorem step_value (g : Fin 8 → ℕ → Fin 128 → ℝ) (c : Dev nD)
    (hg : ∀ (k : Fin 8) (n : Fin 100000) (d : Fin 128),
      Cert.Spec.unitE (heads m c k) n d = ((g k n.val d : ℝ) : EReal))
    (t : Fin cfg0.N) (acc : Vec Ideal S1x1 .f32) (a : ℝ)
    (hacc : acc (ix2 (0 : Fin 1) (0 : Fin 1)) = ((a : ℝ) : EReal)) :
    step (F := Ideal) (iblk m c 0 t) (iblk m c 1 t) (iblk m c 2 t) (iblk m c 3 t) (iblk m c 4 t) (iblk m c 5 t) (iblk m c 6 t) (iblk m c 7 t) acc (ix2 (0 : Fin 1) (0 : Fin 1))
      = ((a + Cert.Totals.tileVal g t.val : ℝ) : EReal) := by
  rw [step_eq_stepN, stepN_eq_spec]
  exact step_real (tiles m c t) (fun k r d => g k (2000 * t.val + r.val) d)
    (fun k r d => (tiles_apply m c t k r d).trans (hg k (row t r) d)) acc a hacc

end Cert.KernelIdeal.StepValue

end
-- ==== Proof.KernelRun.lean ====
/-
  The kernel's run, read as values. The grid has 50 points t = 25 h + i (h < 2 the half, i < 25). The body keeps a
  [1, 1] accumulator carried from point to point: at i = 0 it is set to zero and then stepped, at 0 < i it is stepped
  from what the point before left, and at i = 24 the new accumulator is also copied, recast to [1, 1, 1], to the
  output block, which is written back to row h of the [2, 1, 1] output array at that point only. After the region the
  host adds the two rows to zero, adds a constant and divides by a constant.

  So: the accumulator after point n is a fold of `step` over the points of n's half up to n (`accAt`); the output
  array ends with row h at the accumulator after point 25 h + 24 (`outArr`, `final8`); and the program's result is
  the host's tail of that array, the arguments unchanged (`run`).
-/
import proofs.«147866_j78932908966303_2_alg».proof.Proof.Pieces
import Idealize.ShloMosaic.Lib.Pipeline.Value
import Idealize.ShloMosaic.Lib.StableHlo.Run
import Idealize.ShloMosaic.Lib.Tactic
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Pieces

variable {F : FTy → Type} [FloatOps F]
variable (m : (ℓ : Loc nD τ sig) → Buf (Elt F) ℓ) (ρ : Dev nD → PrngReg)

/-! ## The accumulator, point by point -/

/-- The accumulator after point n: stepped from zero at the first point of a half, from the point before otherwise. -/
def accAt (c : Dev nD) : (n : ℕ) → n < cfg0.N → Vec F S1x1 .f32
  | 0, h => step (iblk m c 0 ⟨0, h⟩) (iblk m c 1 ⟨0, h⟩) (iblk m c 2 ⟨0, h⟩) (iblk m c 3 ⟨0, h⟩) (iblk m c 4 ⟨0, h⟩)
      (iblk m c 5 ⟨0, h⟩) (iblk m c 6 ⟨0, h⟩) (iblk m c 7 ⟨0, h⟩) zeroAcc
  | n + 1, h => step (iblk m c 0 ⟨n + 1, h⟩) (iblk m c 1 ⟨n + 1, h⟩) (iblk m c 2 ⟨n + 1, h⟩) (iblk m c 3 ⟨n + 1, h⟩)
      (iblk m c 4 ⟨n + 1, h⟩) (iblk m c 5 ⟨n + 1, h⟩) (iblk m c 6 ⟨n + 1, h⟩) (iblk m c 7 ⟨n + 1, h⟩)
      (if (n + 1) % 25 = 0 then zeroAcc else accAt c n (Nat.lt_of_succ_lt h))

/-- At the first point of a half the accumulator is one step from zero. -/
theorem accAt_first (c : Dev nD) (t : Fin cfg0.N) (h0 : t.val % 25 = 0) :
    accAt m c t.val t.isLt = step (iblk m c 0 t) (iblk m c 1 t) (iblk m c 2 t) (iblk m c 3 t) (iblk m c 4 t)
      (iblk m c 5 t) (iblk m c 6 t) (iblk m c 7 t) zeroAcc := by
  obtain ⟨n, hn⟩ := t
  cases n with
  | zero => rfl
  | succ n => exact congrArg (step _ _ _ _ _ _ _ _) (if_pos h0)

/-- At a later point of a half the accumulator is one step from the accumulator after the point before. -/
theorem accAt_later (c : Dev nD) (t : Fin cfg0.N) (h0 : ¬t.val % 25 = 0) :
    accAt m c t.val t.isLt = step (iblk m c 0 t) (iblk m c 1 t) (iblk m c 2 t) (iblk m c 3 t) (iblk m c 4 t)
      (iblk m c 5 t) (iblk m c 6 t) (iblk m c 7 t)
      (accAt m c (t.val - 1) (Nat.lt_of_le_of_lt (Nat.sub_le _ _) t.isLt)) := by
  obtain ⟨n, hn⟩ := t
  cases n with
  | zero => exact absurd (Nat.zero_mod _) h0
  | succ n => exact congrArg (step _ _ _ _ _ _ _ _) (if_neg h0)

/-- What a point leaves in the accumulator, case by case: at the first point of a half one step from zero, -/
theorem snd_first (c : Dev nD) (t : Fin cfg0.N) (h0 : t.val % 25 = 0) (h1 : ¬t.val % 25 = 24) :
    (outsAt0 m c t.val t.isLt).2 = step (iblk m c 0 t) (iblk m c 1 t) (iblk m c 2 t) (iblk m c 3 t) (iblk m c 4 t) (iblk m c 5 t) (iblk m c 6 t) (iblk m c 7 t) zeroAcc :=
  (congrArg Prod.snd (outsAt0_A m c t h0 h1)).trans
    (sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t))

/-- in the middle of a half one step from what the point before left, -/
theorem snd_middle (c : Dev nD) (t : Fin cfg0.N) (h0 : ¬t.val % 25 = 0) (h1 : ¬t.val % 25 = 24) :
    (outsAt0 m c t.val t.isLt).2 = step (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2 :=
  (congrArg Prod.snd (outsAt0_B m c t h0 h1)).trans
    (sout_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2)

/-- at the last point of a half likewise, -/
theorem snd_last (c : Dev nD) (t : Fin cfg0.N) (h0 : ¬t.val % 25 = 0) (h1 : t.val % 25 = 24) :
    (outsAt0 m c t.val t.isLt).2 = step (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2 :=
  (congrArg Prod.snd (outsAt0_C m c t h0 h1)).trans
    (sout_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2)

/-- and there the output block holds the same, recast from [1, 1] to [1, 1, 1]. -/
theorem fst_last (c : Dev nD) (t : Fin cfg0.N) (h0 : ¬t.val % 25 = 0) (h1 : t.val % 25 = 24) :
    (outsAt0 m c t.val t.isLt).1 = k0_pay2 (step (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2) :=
  (congrArg Prod.fst (outsAt0_C m c t h0 h1)).trans
    (out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2)

/-- After every point the carried scratch holds the accumulator: by induction on the point. -/
theorem outsAt_snd (c : Dev nD) : ∀ (n : ℕ) (h : n < cfg0.N), (outsAt0 m c n h).2 = accAt m c n h
  | 0, h => (snd_first m c ⟨0, h⟩ (Nat.zero_mod _) (by show ¬0 % 25 = 24; decide)).trans (accAt_first m c ⟨0, h⟩ (Nat.zero_mod _)).symm
  | n + 1, h => by
    have ih := outsAt_snd c n (Nat.lt_of_succ_lt h)
    by_cases h0 : (n + 1) % 25 = 0
    · have h1 : ¬(n + 1) % 25 = 24 := by omega
      exact (snd_first m c ⟨n + 1, h⟩ h0 h1).trans (accAt_first m c ⟨n + 1, h⟩ h0).symm
    · by_cases h1 : (n + 1) % 25 = 24
      · refine (snd_last m c ⟨n + 1, h⟩ h0 h1).trans (Eq.trans ?_ (accAt_later m c ⟨n + 1, h⟩ h0).symm)
        exact congrArg (step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)) ih
      · refine (snd_middle m c ⟨n + 1, h⟩ h0 h1).trans (Eq.trans ?_ (accAt_later m c ⟨n + 1, h⟩ h0).symm)
        exact congrArg (step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)) ih

/-- At the last point of a half the output block holds the accumulator, recast from [1, 1] to [1, 1, 1]. -/
theorem outsAt_fst (c : Dev nD) (n : ℕ) (h : n < cfg0.N) (h24 : n % 25 = 24) :
    (outsAt0 m c n h).1 = k0_pay2 (accAt m c n h) := by
  have h0 : ¬n % 25 = 0 := by omega
  refine (fst_last m c ⟨n, h⟩ h0 h24).trans (congrArg k0_pay2 ?_)
  refine Eq.trans ?_ (accAt_later m c ⟨n, h⟩ h0).symm
  exact congrArg (step (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩)) (outsAt_snd m c (n - 1) (Nat.lt_of_le_of_lt (Nat.sub_le _ _) h))

/-! ## From the blocks to the output array -/

/-- The accumulator depends on the point only through its number. -/
theorem accAt_congr (c : Dev nD) {n n' : ℕ} (e : n = n') (h : n < cfg0.N) (h' : n' < cfg0.N) :
    accAt m c n h = accAt m c n' h' := by subst e; rfl

/-- A [1, 1] array has one entry. -/
theorem idx1x1 (j : S1x1.Idx) : j = ValueIdx.ix2 0 0 := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- The output array after the region: row h holds the accumulator after the last point of half h. -/
def outArr (c : Dev nD) : Buf (Elt F) ((c : Thread nD τ).loc main_v0) :=
  fun idx => accAt m c (25 * (idx 0).val + 24) (by
    have h2 : (idx 0).val < 2 := (idx 0).isLt
    rw [show cfg0.N = 50 from N_0]; omega) (ValueIdx.ix2 0 0)

/-- The output's index map, decided over the grid: the block of point t is row t / 25 of the array. -/
theorem idx_facts : ∀ t : Fin cfg0.N, win0_8.index t (0 : Fin 3) = t.val / 25 ∧ win0_8.index t (1 : Fin 3) = 0
    ∧ win0_8.index t (2 : Fin 3) = 0 :=
  (by decide +kernel : ∀ t : Fin grid0.N, win0_8.index t (0 : Fin 3) = t.val / 25 ∧ win0_8.index t (1 : Fin 3) = 0
    ∧ win0_8.index t (2 : Fin 3) = 0)

/-- What the last point of a half writes back is its row of that array. -/
theorem flushed_eq (c : Dev nD) (t : Fin cfg0.N) (hf : (cfg0.win 8).flush t = true) :
    (dats m 0 c).flushed 8 t = ((cfg0.win 8).blk t).view.read (Elt F) (outArr m c) := by
  have hN : cfg0.N = 50 := N_0
  have h24 : t.val % 25 = 24 := (flush0_8 t).mp hf
  obtain ⟨e0, -, -⟩ := idx_facts t
  show (cfg0.win 8).cut (grid0.coords t) ((dats m 0 c).after 8 t) = _
  rw [after0_8, outsAt_fst m c t.val t.isLt h24]
  funext j
  show shapeCast S1x1x1 (accAt m c t.val t.isLt) shapeCasts_S1x1_S1x1x1 _ = outArr m c (((cfg0.win 8).blk t).view.emb j)
  show accAt m c t.val t.isLt (Shape.reshapeEquiv shapeCasts_S1x1_S1x1x1 ((cfg0.win 8).xinj (grid0.coords t) j))
    = accAt m c (25 * ((((cfg0.win 8).blk t).view.emb j) 0).val + 24) _ (ValueIdx.ix2 0 0)
  refine (congrArg (accAt m c t.val t.isLt) (idx1x1 _)).trans ?_
  refine congrFun (accAt_congr m c ?_ _ _) _
  show t.val = 25 * (win0_8.index t (0 : Fin 3) * 1 + 1 * (j 0).val) + 24
  have hj : (j 0).val < 1 := (j 0).isLt
  rw [e0]; omega

/-- So the output array ends with row h at the accumulator after point 25 h + 24: that point's block is row h. -/
theorem final8 (c : Dev nD) : (dats m 0 c).arrAt 8 cfg0.N = outArr m c :=
  (dats m 0 c).arrAt_eq_of_cover 8 (outArr m c) (flushed_eq m c) fun idx => by
    have hN : cfg0.N = 50 := N_0
    have h0 : (idx 0).val < 2 := (idx 0).isLt
    have h1 : (idx 1).val < 1 := (idx 1).isLt
    have h2 : (idx 2).val < 1 := (idx 2).isLt
    have ht : 25 * (idx 0).val + 24 < cfg0.N := by rw [hN]; omega
    obtain ⟨e0, e1, e2⟩ := idx_facts ⟨25 * (idx 0).val + 24, ht⟩
    have e0' : win0_8.index ⟨25 * (idx 0).val + 24, ht⟩ (0 : Fin 3) = (25 * (idx 0).val + 24) / 25 := e0
    refine ⟨⟨25 * (idx 0).val + 24, ht⟩, (flush0_8 _).mpr (by show (25 * (idx 0).val + 24) % 25 = 24; omega), ?_⟩
    show idx ∈ ((View.whole main_v0).slice (win0_8.rect ⟨25 * (idx 0).val + 24, ht⟩)).set
    rw [View.set_slice_whole, Rect.mem_set_unit]
    intro a
    match a with
    | ⟨0, _⟩ =>
      show win0_8.index ⟨25 * (idx 0).val + 24, ht⟩ (0 : Fin 3) * 1 ≤ (idx 0).val
        ∧ (idx 0).val < win0_8.index ⟨25 * (idx 0).val + 24, ht⟩ (0 : Fin 3) * 1 + 1
      rw [e0']; omega
    | ⟨1, _⟩ =>
      show win0_8.index ⟨25 * (idx 0).val + 24, ht⟩ (1 : Fin 3) * 1 ≤ (idx 1).val
        ∧ (idx 1).val < win0_8.index ⟨25 * (idx 0).val + 24, ht⟩ (1 : Fin 3) * 1 + 1
      rw [e1]; omega
    | ⟨2, _⟩ =>
      show win0_8.index ⟨25 * (idx 0).val + 24, ht⟩ (2 : Fin 3) * 1 ≤ (idx 2).val
        ∧ (idx 2).val < win0_8.index ⟨25 * (idx 0).val + 24, ht⟩ (2 : Fin 3) * 1 + 1
      rw [e2]; omega

/-! ## The host's tail and the run -/

/-- The host's tail: the entries of the output array added to zero, a constant added, the sum divided by a constant. -/
def tail (o : (⟨S2x1x1, .f32⟩ : BufTy).Contents (Elt F)) : (⟨S_, .f32⟩ : BufTy).Contents (Elt F) :=
  Host.divf (addf (Host.reduceAdd o (constant S_ .f32 0x00000000#32) reducesTo_S2x1x1_S_d0_1_2 h_S_)
    (constant S_ .f32 0x49435000#32)) (constant S_ .f32 0x47C35000#32)

/-- What the host's operations after the region leave in the program's result: the tail of the output array. -/
theorem tail_eq (c : Dev nD) :
    Pipeline.afterTail₀ cfgs (dats m) 0 (V0 m) [hostOps1] c main_v3 = tail (outArr m c) := by
  unfold Pipeline.afterTail₀
  show StableHlo.after hostOps1 _ (Proc.devRef .tc main_v3) = _
  after_results
  exact congrArg tail ((Pipeline.withArrays_arr spec0 launch0.win.arr_inj c _ _ 8).trans (final8 m c))

/-- THE RUN, READ: every execution of the program ends with its result at the host's tail of the output array — row h
    of which is the accumulator after the last point of half h — and its eight arguments as they were. -/
theorem run : θ_run defs (onTc (τ := τ) (main (F := F))) ⟨m, fun _ => 0, ρ⟩ fun r => ∀ c : Dev nD,
      r.2.mem ((c.tc : Thread nD τ).loc main_v3) = tail (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.Run

end
-- ==== Proof.RealTotal.lean ====
/-
  The specification's sum over real entries: when every normalized entry unitE (X k) n d is a real number g k n d, the sum
  over nodes and pairs of heads of the squared distance of the correlation to the identity is the (coercion of the) real sum
  of nodeVal over the 100000 nodes.
-/
import proofs.«147866_j78932908966303_2_alg».proof.Proof.Spec
import proofs.«147866_j78932908966303_2_alg».proof.Proof.Totals
import proofs.«147866_j78932908966303_2_alg».proof.Proof.LibReal

noncomputable section

open scoped BigOperators

namespace Cert.RealTotal

open Idealize.ShloMosaic Cert.Spec

theorem totalE_real (X : Fin 8 → Mat) (g : Fin 8 → ℕ → Fin 128 → ℝ)
    (hg : ∀ (k : Fin 8) (n : Fin 100000) (d : Fin 128), unitE (X k) n d = ((g k n.val d : ℝ) : EReal)) :
    totalE X = ((∑ n : Fin 100000, Cert.Totals.nodeVal g n.val : ℝ) : EReal) := by
  unfold totalE corrE deltaE
  simp only [hg, ← EReal.coe_mul, ← Cert.LibReal.coe_sum, ← EReal.coe_sub]
  rfl

end Cert.RealTotal

end
-- ==== Proof.Finite.lean ====
/-
  Finiteness. Part 1: a precondition that and-s together, for eight arrays, all(|x| < +inf) and answers 1 says that every
  entry of every array is a real number: a conjunction that is 1 has both conjuncts 1, a reduction by "and" over all axes
  that is 1 met a 1 at every index, the word 0x7F800000 denotes the top of the extended reals, and an extended real whose
  absolute value max x (-x) is strictly below the top is neither the bottom nor the top, hence a real number.
  Part 2: the clamp word 0x322BCC77 denotes the positive real 11258999 / 2^50; for a matrix of real numbers the sum of
  squares of a row is a nonnegative real, its square root a real, the maximum of that root and the clamp a positive real,
  and so every normalized entry (the entry over that maximum) is a real number.
-/
import proofs.«147866_j78932908966303_2_alg».proof.Defs
import proofs.«147866_j78932908966303_2_alg».proof.Proof.Gen.Pre_finite_inputs
import proofs.«147866_j78932908966303_2_alg».proof.Proof.Spec
import proofs.«147866_j78932908966303_2_alg».proof.Proof.LibReal
import Idealize.ShloMosaic.Lib.ReduceAll
import Idealize.ShloMosaic.Lib.ValueIdx
import Idealize.ShloMosaic.PureOps.Ideal.Laws

noncomputable section

open scoped BigOperators

namespace Cert.Finite

open Idealize.ShloMosaic Idealize.ShloMosaic.ValueIdx Cert.LibReal

/-- The rank-0 index set has one element. -/
instance : Subsingleton Cert.Pre_finite_inputs.S_.Idx := ⟨fun a b => funext fun d => d.elim0⟩

/-- The word of +inf denotes the top of the extended reals. -/
theorem ofBits_inf : Ideal.ofBits .f32 0x7F800000#32 = (⊤ : EReal) := by
  simp [Ideal.ofBits, Ideal.ieee]

/-- A strict comparison of extended reals that answers 1 holds. -/
theorem lt_of_cmp_olt {a b : EReal} (h : Ideal.cmp .olt a b = 1#1) : a < b := by
  unfold Ideal.cmp at h
  by_contra hn
  simp [hn] at h

/-- An extended real whose absolute value is below +inf is a real number. -/
theorem isReal_of_abs_lt_top {a : EReal} (h : max a (-a) < ⊤) : IsReal a := by
  induction a using EReal.rec with
  | bot => exact absurd h (by simp)
  | top => exact absurd h (by simp)
  | coe r => exact ⟨r, rfl⟩

/-- all(|x| < +inf) = 1 says every entry of x is a real number. -/
theorem all_real [hP : Cert.Pre_finite_inputs.Facts] (x : Cert.Spec.Mat)
    (h : Host.reduce IntOp.andi
        (cmpf CmpFPredicate.olt (Host.absf x)
          (broadcastInDim Cert.Pre_finite_inputs.S100000x128 ![] Cert.Pre_finite_inputs.Facts.bcast_S_S100000x128
            (constant (F := Ideal) Cert.Pre_finite_inputs.S_ FTy.f32 0x7F800000#32)))
        (constantI Cert.Pre_finite_inputs.S_ 1 1#1) Cert.Pre_finite_inputs.Facts.reducesTo_S100000x128_S_d0_1
        Cert.Pre_finite_inputs.Facts.h_S_ ix0 = 1#1) :
    ∀ i, IsReal (x i) := by
  intro i
  have e := Host.reduce_andi_all _ _ _ _ _ h i
  change Ideal.cmp .olt (max (x i) (-(x i))) (Ideal.ofBits .f32 0x7F800000#32) = 1#1 at e
  rw [ofBits_inf] at e
  exact isReal_of_abs_lt_top (lt_of_cmp_olt e)

/-- The printed predicate over eight arrays answering 1 says every entry of every array is a real number. -/
theorem entries_real [hP : Cert.Pre_finite_inputs.Facts] (x0 x1 x2 x3 x4 x5 x6 x7 : Cert.Spec.Mat)
    (h : Cert.Pre_finite_inputs.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧
    (∀ i, IsReal (x4 i)) ∧ (∀ i, IsReal (x5 i)) ∧ (∀ i, IsReal (x6 i)) ∧ (∀ i, IsReal (x7 i)) := by
  have h0 := congrFun h ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 e0, all_real x1 e1, all_real x2 e2, all_real x3 e3, all_real x4 e4, all_real x5 e5,
    all_real x6 e6, all_real x7 e7⟩

/-- The clamp word (nearest the decimal 1e-8) denotes a positive real number. -/
theorem eps_pos_real : ∃ r : ℝ, 0 < r ∧ Ideal.ofBits .f32 0x322BCC77#32 = (r : EReal) := by
  refine ⟨(11258999 : ℝ) * (2 ^ 50)⁻¹, by positivity, ?_⟩
  simp [Ideal.ofBits, Ideal.ieee]

/-- The coercion of the reals into the extended reals commutes with max. -/
theorem coe_max (a b : ℝ) : ((max a b : ℝ) : EReal) = max (a : EReal) (b : EReal) :=
  EReal.coe_strictMono.monotone.map_max

/-- A normalized entry of a matrix of real numbers is a real number: the row's sum of squares is a nonnegative real, its
    square root a real, the clamp below by a positive real keeps the divisor positive, and the quotient is real. -/
theorem unitE_real (x : Cert.Spec.Mat) (hx : ∀ i, IsReal (x i)) (n : Fin 100000) (d : Fin 128) :
    IsReal (Cert.Spec.unitE x n d) := by
  unfold Cert.Spec.unitE
  obtain ⟨e, he, hw⟩ := eps_pos_real
  choose r hr using hx
  have hsum : (∑ j : Fin 128, x (ix2 n j) * x (ix2 n j))
      = ((∑ j : Fin 128, r (ix2 n j) * r (ix2 n j) : ℝ) : EReal) := by
    rw [coe_sum]
    refine Finset.sum_congr rfl fun j _ => ?_
    rw [hr, EReal.coe_mul]
  have hnn : 0 ≤ ∑ j : Fin 128, r (ix2 n j) * r (ix2 n j) := Finset.sum_nonneg fun j _ => mul_self_nonneg _
  rw [hsum, Ideal.sqrt_coe, if_neg (not_lt.mpr hnn), hw, ← coe_max]
  refine IsReal.div ⟨_, hr _⟩ (isReal_coe _) ?_
  exact EReal.coe_ne_zero.mpr (ne_of_gt (lt_max_of_lt_right he))

/-- The normalized entries of eight matrices of real numbers, as real-valued functions. -/
theorem unitE_real' (X : Fin 8 → Cert.Spec.Mat) (hX : ∀ k i, IsReal (X k i)) :
    ∃ u : Fin 8 → Fin 100000 → Fin 128 → ℝ, ∀ k n d, Cert.Spec.unitE (X k) n d = ((u k n d : ℝ) : EReal) := by
  have h : ∀ k n d, ∃ r : ℝ, Cert.Spec.unitE (X k) n d = (r : EReal) := fun k n d => unitE_real (X k) (hX k) n d
  choose u hu using h
  exact ⟨u, hu⟩

end Cert.Finite

end
-- ==== Proof.LibSumIdx3.lean ====
/-
  A sum over the indices of a rank-3 array is the triple sum over its coordinates; with a trailing unit axis, or two, the
  sums over those axes have one term.
-/
import Idealize.ShloMosaic.Lib.ValueIdx

noncomputable section

open scoped BigOperators

namespace Cert.Lib.SumIdx3

open Idealize.ShloMosaic Idealize.ShloMosaic.ValueIdx

/-- An index of a rank-3 array is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a trailing unit axis: the double sum over the first two coordinates. -/
theorem sum_idx3_unit {M : Type*} [AddCommMonoid M] {n0 n1 : Nat} (f : (⟨3, ![n0, n1, 1]⟩ : Shape).Idx → M) :
    ∑ i, f i = ∑ a : Fin n0, ∑ b : Fin n1, f (ix3 a b (0 : Fin 1)) := by
  rw [sum_idx3]
  refine Finset.sum_congr rfl fun a _ => Finset.sum_congr rfl fun b _ => ?_
  rw [Fin.sum_univ_one]

/-- With two trailing unit axes: the sum over the first coordinate. -/
theorem sum_idx3_unit_unit {M : Type*} [AddCommMonoid M] {n0 : Nat} (f : (⟨3, ![n0, 1, 1]⟩ : Shape).Idx → M) :
    ∑ i, f i = ∑ a : Fin n0, f (ix3 a (0 : Fin 1) (0 : Fin 1)) := by
  rw [sum_idx3_unit]
  refine Finset.sum_congr rfl fun a _ => ?_
  rw [Fin.sum_univ_one]

end Cert.Lib.SumIdx3

end
-- ==== Proof.Bridge.lean ====
/-
  The kernel's result is the loss. At every grid point the accumulator holds the real number accVal g n (by induction on
  the point: one step from zero at the first point of a half, one step from the point before otherwise); so the output
  array's two rows hold the two halves' sums, and the host's tail — zero plus the two rows, plus the word of 800000,
  over the word of 100000 — is the specification's loss: the 8 per node that the kernel leaves out of every tile are the
  800000 = 8 · 100000 the host adds back.
-/
import proofs.«147866_j78932908966303_2_alg».proof.Proof.StepValue
import proofs.«147866_j78932908966303_2_alg».proof.Proof.KernelRun
import proofs.«147866_j78932908966303_2_alg».proof.Proof.RealTotal
import proofs.«147866_j78932908966303_2_alg».proof.Proof.Finite
import proofs.«147866_j78932908966303_2_alg».proof.Proof.LibSumIdx3

set_option maxRecDepth 65536

noncomputable section

open scoped BigOperators
open Idealize.ShloMosaic Idealize.ShloMosaic.TcCoe Idealize.ShloMosaic.ValueIdx Idealize.SL.Sem

namespace Cert.KernelIdeal.Bridge

open Cert.KernelIdeal Cert.KernelIdeal.Gen Cert.KernelIdeal.Pieces Cert.KernelIdeal.Run Cert.KernelIdeal.StepValue

variable (m : (ℓ : Loc nD τ sig) → Buf (Elt Ideal) ℓ)

/-- After point n the accumulator holds accVal g n. -/
theorem accAt_value (g : Fin 8 → ℕ → Fin 128 → ℝ) (c : Dev nD)
    (hg : ∀ (k : Fin 8) (n : Fin 100000) (d : Fin 128),
      Cert.Spec.unitE (heads m c k) n d = ((g k n.val d : ℝ) : EReal)) :
    ∀ (n : ℕ) (h : n < cfg0.N),
      accAt m c n h (ix2 (0 : Fin 1) (0 : Fin 1)) = ((Cert.Totals.accVal g n : ℝ) : EReal)
  | 0, h => by
    refine (congrFun (accAt_first m c ⟨0, h⟩ (Nat.zero_mod 25)) _).trans ?_
    exact step_value m g c hg ⟨0, h⟩ zeroAcc 0 zeroAcc_value
  | n + 1, h => by
    by_cases h0 : (n + 1) % 25 = 0
    · refine (congrFun (accAt_first m c ⟨n + 1, h⟩ h0) _).trans ?_
      refine (step_value m g c hg ⟨n + 1, h⟩ zeroAcc 0 zeroAcc_value).trans ?_
      rw [Cert.Totals.accVal_start g (n + 1) h0]
    · refine (congrFun (accAt_later m c ⟨n + 1, h⟩ h0) _).trans ?_
      refine (step_value m g c hg ⟨n + 1, h⟩ _ (Cert.Totals.accVal g n)
        (accAt_value g c hg n (Nat.lt_of_succ_lt h))).trans ?_
      rw [Cert.Totals.accVal_step g n h0]

/-- The word of 100000, the divisor both programs share. -/
abbrev wN : EReal := Ideal.ofBits .f32 0x47C35000#32

/-- The host's tail of the output array is the loss, given real witnesses g of the normalized entries. -/
theorem kernel_value_of (g : Fin 8 → ℕ → Fin 128 → ℝ) (c : Dev nD)
    (hg : ∀ (k : Fin 8) (n : Fin 100000) (d : Fin 128),
      Cert.Spec.unitE (heads m c k) n d = ((g k n.val d : ℝ) : EReal)) (i : S_.Idx) :
    Cert.KernelIdeal.Run.tail (F := Ideal) (outArr m c) i = Cert.Spec.lossE (heads m c) := by
  have hA := accAt_value m g c hg
  unfold Cert.KernelIdeal.Run.tail
  simp only [Host.divf, addf, Host.reduceAdd, Ideal.hostReduceAdd_def, Ideal.hostDivf_def, Ideal.addf_def, constant,
    Ideal.ofBits_def]
  rw [Ideal.hostReduceAdd_total reducesTo_S2x1x1_S_d0_1_2 (fun b => b.elim0) (outArr m c) _ i,
    Cert.Lib.SumIdx3.sum_idx3_unit_unit, Fin.sum_univ_two]
  have e0 : outArr m c (ix3 (0 : Fin 2) (0 : Fin 1) (0 : Fin 1)) = ((Cert.Totals.accVal g 24 : ℝ) : EReal) := hA 24 _
  have e1 : outArr m c (ix3 (1 : Fin 2) (0 : Fin 1) (0 : Fin 1)) = ((Cert.Totals.accVal g 49 : ℝ) : EReal) := hA 49 _
  rw [e0, e1, Ideal.ofBits_zero_f32, Cert.LibReal.ofBits_800000]
  unfold Cert.Spec.lossE
  rw [Cert.RealTotal.totalE_real (heads m c) g hg, ← Cert.Totals.kernel_total g]
  refine congrArg (fun x => Ideal.div x (Ideal.ofBits .f32 0x47C35000#32)) ?_
  simp only [EReal.coe_add, EReal.coe_zero]

/-- The host's tail of the output array is the loss of the eight argument arrays, when their entries are real. -/
theorem kernel_value (c : Dev nD) (hX : ∀ k i, Cert.LibReal.IsReal (heads m c k i)) (i : S_.Idx) :
    Cert.KernelIdeal.Run.tail (F := Ideal) (outArr m c) i = Cert.Spec.lossE (heads m c) := by
  obtain ⟨u, hu⟩ := Cert.Finite.unitE_real' (heads m c) hX
  refine kernel_value_of m (fun k n d => if h : n < 100000 then u k ⟨n, h⟩ d else 0) c (fun k n d => ?_) i
  rw [hu]
  show ((u k n d : ℝ) : EReal) = ((if h : n.val < 100000 then u k ⟨n.val, h⟩ d else 0 : ℝ) : EReal)
  rw [dif_pos n.isLt]

end Cert.KernelIdeal.Bridge

end
-- ==== Proof.RefValue.lean ====
/-
  The reference's value is the diversity loss of the eight heads.

  Read stage by stage on the extended reals: the stack of the eight matrices at (n, k, d) is entry (n, d) of matrix k; every
  row is divided by its clamped length, so the stack becomes the normalized entries; the batched dot product at (n, k, l)
  is the correlation of heads k and l at node n; the compared coordinates give the identity matrix's entry (k, l); and the
  sum over every index of the squared differences, from zero, is the triple sum over nodes and pairs of heads, which
  divided by the word of 100000 is the loss.
-/
import proofs.«147866_j78932908966303_2_alg».proof.Proof.Gen.ReferenceIdeal.Read
import proofs.«147866_j78932908966303_2_alg».proof.Proof.Spec
import proofs.«147866_j78932908966303_2_alg».proof.Proof.LibSumIdx3

noncomputable section

open scoped BigOperators

namespace Cert.RefValue

open Cert.ReferenceIdeal Cert.ReferenceIdeal.Gen Cert.ReferenceIdeal.Read Idealize.ShloMosaic Idealize.ShloMosaic.ValueIdx Cert.Spec

/-- The eight unit-height slabs that are stacked along the middle axis. -/
def slabs (x0 x1 x2 x3 x4 x5 x6 x7 : Mat) : Fin 8 → (S100000x1x128.Idx → EReal) :=
  ![val_main_v0 (F := Ideal) x0, val_main_v1 (F := Ideal) x1, val_main_v2 (F := Ideal) x2, val_main_v3 (F := Ideal) x3,
    val_main_v4 (F := Ideal) x4, val_main_v5 (F := Ideal) x5, val_main_v6 (F := Ideal) x6, val_main_v7 (F := Ideal) x7]

/-- Slab k at (n, 0, d) is entry (n, d) of the k-th matrix. -/
theorem slabs_apply (x0 x1 x2 x3 x4 x5 x6 x7 : Mat) (n : Fin 100000) (k : Fin 8) (d : Fin 128) :
    slabs x0 x1 x2 x3 x4 x5 x6 x7 k (ix3 n (0 : Fin 1) d) = (![x0, x1, x2, x3, x4, x5, x6, x7] k) (ix2 n d) := by
  have e : ∀ K : S100000x1x128.Idx → S100000x128.Idx,
      (∀ i, K i = fun a => match a with | ⟨0, _⟩ => ⟨(i 0).val, (i 0).isLt⟩ | ⟨1, _⟩ => ⟨(i 2).val, (i 2).isLt⟩) →
      K (ix3 n (0 : Fin 1) d) = ix2 n d := fun K hK => by
    rw [hK]; exact funext fun a => Fin.ext (by match a with | ⟨0, _⟩ => rfl | ⟨1, _⟩ => rfl)
  match k with
  | ⟨0, _⟩ => exact (val_main_v0_apply (F := Ideal) x0 (ix3 n (0 : Fin 1) d)).trans (congrArg x0 (e idx_main_v0 fun _ => rfl))
  | ⟨1, _⟩ => exact (val_main_v1_apply (F := Ideal) x1 (ix3 n (0 : Fin 1) d)).trans (congrArg x1 (e idx_main_v1 fun _ => rfl))
  | ⟨2, _⟩ => exact (val_main_v2_apply (F := Ideal) x2 (ix3 n (0 : Fin 1) d)).trans (congrArg x2 (e idx_main_v2 fun _ => rfl))
  | ⟨3, _⟩ => exact (val_main_v3_apply (F := Ideal) x3 (ix3 n (0 : Fin 1) d)).trans (congrArg x3 (e idx_main_v3 fun _ => rfl))
  | ⟨4, _⟩ => exact (val_main_v4_apply (F := Ideal) x4 (ix3 n (0 : Fin 1) d)).trans (congrArg x4 (e idx_main_v4 fun _ => rfl))
  | ⟨5, _⟩ => exact (val_main_v5_apply (F := Ideal) x5 (ix3 n (0 : Fin 1) d)).trans (congrArg x5 (e idx_main_v5 fun _ => rfl))
  | ⟨6, _⟩ => exact (val_main_v6_apply (F := Ideal) x6 (ix3 n (0 : Fin 1) d)).trans (congrArg x6 (e idx_main_v6 fun _ => rfl))
  | ⟨7, _⟩ => exact (val_main_v7_apply (F := Ideal) x7 (ix3 n (0 : Fin 1) d)).trans (congrArg x7 (e idx_main_v7 fun _ => rfl))

/-- The stack at (n, k, d) is entry (n, d) of the k-th matrix: the concatenation of unit-height slabs reads the slab
    its middle coordinate names. -/
theorem stack_apply (x0 x1 x2 x3 x4 x5 x6 x7 : Mat) (n : Fin 100000) (k : Fin 8) (d : Fin 128) :
    val_main_v8 (F := Ideal) x0 x1 x2 x3 x4 x5 x6 x7 (ix3 n k d) = (![x0, x1, x2, x3, x4, x5, x6, x7] k) (ix2 n d) := by
  rw [← slabs_apply]
  unfold val_main_v8
  exact concatenate_ofFn_unit_apply (t := S100000x8x128) (s₁ := S100000x1x128) 1 (slabs x0 x1 x2 x3 x4 x5 x6 x7)
    concatenates_S100000x1x128_S100000x1x128_S100000x1x128_S100000x1x128_S100000x1x128_S100000x1x128_S100000x1x128_S100000x1x128_S100000x8x128_d1
    rfl rfl (ix3 n k d) k rfl (ix3 n (0 : Fin 1) d)
    (fun b hb => by match b with | ⟨0, _⟩ => rfl | ⟨1, _⟩ => exact absurd rfl hb | ⟨2, _⟩ => rfl)

/-- The clamp's operand index: (n, k, d) of the stack reads the row lengths at (n, k, 0). -/
theorem idx_len (n : Fin 100000) (k : Fin 8) (d : Fin 128) : idx_main_v12 (ix3 n k d) = ix3 n k (0 : Fin 1) :=
  funext fun a => Fin.ext (by match a with | ⟨0, _⟩ => rfl | ⟨1, _⟩ => rfl | ⟨2, _⟩ => rfl)

/-- Dropping the trailing unit axis of (n, k, 0) gives (n, k). -/
theorem idx_drop (n : Fin 100000) (k : Fin 8) : idx_main_call0_v2 (ix3 n k (0 : Fin 1)) = ix2 n k :=
  funext fun a => Fin.ext (by match a with | ⟨0, _⟩ => rfl | ⟨1, _⟩ => rfl)

/-- The j-th term of the row sum at (n, k) sits at (n, k, j). -/
theorem idx_row (n : Fin 100000) (k : Fin 8) (j : Fin 128) : idx_main_call0_v1 (ix2 n k) j = ix3 n k j :=
  funext fun a => Fin.ext (by match a with | ⟨0, _⟩ => rfl | ⟨1, _⟩ => rfl | ⟨2, _⟩ => rfl)

/-- The sum of squares of row n of the k-th matrix. -/
theorem sumsq_apply (x0 x1 x2 x3 x4 x5 x6 x7 : Mat) (n : Fin 100000) (k : Fin 8) :
    val_main_call0_v1 (F := Ideal) x0 x1 x2 x3 x4 x5 x6 x7 (ix2 n k)
      = ∑ j : Fin 128, (![x0, x1, x2, x3, x4, x5, x6, x7] k) (ix2 n j) * (![x0, x1, x2, x3, x4, x5, x6, x7] k) (ix2 n j) := by
  rw [val_main_call0_v1_apply, val_main_call0_cst_apply, Ideal.ofBits_def, Ideal.ofBits_zero_f32, zero_add]
  refine Finset.sum_congr rfl fun j _ => ?_
  rw [idx_row, val_main_call0_v0_apply, stack_apply, Ideal.mulf_def]

/-- The clamped length of row n of the k-th matrix. -/
theorem clamp_apply (x0 x1 x2 x3 x4 x5 x6 x7 : Mat) (n : Fin 100000) (k : Fin 8) :
    val_main_v11 (F := Ideal) x0 x1 x2 x3 x4 x5 x6 x7 (ix3 n k (0 : Fin 1))
      = max (Ideal.sqrt (∑ j : Fin 128, (![x0, x1, x2, x3, x4, x5, x6, x7] k) (ix2 n j) * (![x0, x1, x2, x3, x4, x5, x6, x7] k) (ix2 n j)))
          (Ideal.ofBits .f32 0x322BCC77#32) := by
  rw [val_main_v11_apply, val_main_v10_apply, val_main_cst_apply, val_main_v9_apply, val_main_call0_v2_apply, idx_drop,
    sumsq_apply]
  rfl

/-- The normalized entry: the stack's entry over the clamped length of its row. -/
theorem unit_apply (x0 x1 x2 x3 x4 x5 x6 x7 : Mat) (n : Fin 100000) (k : Fin 8) (d : Fin 128) :
    val_main_v13 (F := Ideal) x0 x1 x2 x3 x4 x5 x6 x7 (ix3 n k d) = unitE (![x0, x1, x2, x3, x4, x5, x6, x7] k) n d := by
  rw [val_main_v13_apply, val_main_v12_apply, idx_len, clamp_apply, stack_apply]
  rfl

/-- The left operand of the d-th term of the dot product at (n, k, l) sits at (n, k, d). -/
theorem idx_left (n : Fin 100000) (k l : Fin 8) (d : Fin 128) : lidx_main_v14 (ix3 n k l) d = ix3 n k d :=
  funext fun a => Fin.ext (by match a with | ⟨0, _⟩ => rfl | ⟨1, _⟩ => rfl | ⟨2, _⟩ => rfl)

/-- The right operand of the d-th term of the dot product at (n, k, l) sits at (n, l, d). -/
theorem idx_right (n : Fin 100000) (k l : Fin 8) (d : Fin 128) : ridx_main_v14 (ix3 n k l) d = ix3 n l d :=
  funext fun a => Fin.ext (by match a with | ⟨0, _⟩ => rfl | ⟨1, _⟩ => rfl | ⟨2, _⟩ => rfl)

/-- The correlation of heads k and l at node n. -/
theorem corr_apply (x0 x1 x2 x3 x4 x5 x6 x7 : Mat) (n : Fin 100000) (k l : Fin 8) :
    val_main_v14 (F := Ideal) x0 x1 x2 x3 x4 x5 x6 x7 (ix3 n k l) = corrE ![x0, x1, x2, x3, x4, x5, x6, x7] n k l := by
  rw [val_main_v14_apply]
  unfold corrE
  refine Finset.sum_congr rfl fun d _ => ?_
  rw [idx_left, idx_right, unit_apply, unit_apply]

/-- Two coordinates below 8, as 32-bit words, compare equal exactly when they are equal. -/
theorem delta_word : ∀ k l : Fin 8,
    (IntOp.cmpi .eq (IntOp.addi (BitVec.ofNat 32 k.val) 0#32) (BitVec.ofNat 32 l.val)).toNat = if k = l then 1 else 0 := by
  decide

/-- The identity matrix's entry (k, l), at every node. -/
theorem delta_apply (n : Fin 100000) (k l : Fin 8) : val_main_v22 (F := Ideal) (ix3 n k l) = deltaE k l := by
  rw [val_main_v22_apply, val_main_v21_apply, val_main_v20_apply, val_main_v19_apply, val_main_v18_apply,
    val_main_v15_apply, val_main_v17_apply, val_main_c_apply, val_main_v16_apply]
  show (((IntOp.cmpi .eq (IntOp.addi (BitVec.ofNat 32 k.val) 0#32) (BitVec.ofNat 32 l.val)).toNat : ℝ) : EReal)
    = deltaE k l
  rw [delta_word]
  unfold deltaE
  by_cases h : k = l
  · rw [if_pos h, if_pos h, Nat.cast_one]
  · rw [if_neg h, if_neg h, Nat.cast_zero]

/-- The reference's result is the loss of the eight matrices. -/
theorem ref_eq_loss (x0 x1 x2 x3 x4 x5 x6 x7 : Mat) (i : S_.Idx) :
    val_main_v26 (F := Ideal) x0 x1 x2 x3 x4 x5 x6 x7 i = lossE ![x0, x1, x2, x3, x4, x5, x6, x7] := by
  rw [val_main_v26_apply, val_main_v25_apply, val_main_cst_0_apply, val_main_cst_1_apply, Ideal.hostDivf_def,
    Ideal.ofBits_def, Ideal.ofBits_def, Ideal.ofBits_zero_f32, zero_add, Cert.Lib.SumIdx3.sum_idx3]
  unfold lossE totalE
  refine congrArg (fun t => Ideal.div t (Ideal.ofBits .f32 0x47C35000#32)) ?_
  refine Finset.sum_congr rfl fun n _ => Finset.sum_congr rfl fun k _ => Finset.sum_congr rfl fun l _ => ?_
  rw [val_main_v24_apply, val_main_v23_apply, corr_apply, delta_apply, Ideal.mulf_def, Ideal.subf_def]

end Cert.RefValue

end
-- ==== Proof.lean ====
/-
  The certificate of the Barlow-Twins diversity loss kernel against its jnp reference.

  Both programs normalize every row of eight [100000,128] arrays by its clamped length and measure, per node, how far the
  8x8 matrix of dot products of the normalized rows is from the identity. The reference squares all 64 differences and sums
  over the nodes. The kernel walks the nodes in 2 x 25 tiles of 2000, keeps per half a running total of
  (sum of squared diagonal) − 2 (sum of diagonal) + 2 (sum over k < l of squared off-diagonal) — the off-diagonal squares
  through the identity  Σ_{d,e} (PᵀP)_{de} = Σ_n (Σ_d P_{nd})²  with P the entrywise product of two normalized tiles —
  and the host adds the two halves, the missing 8 per node (800000) and divides by 100000. Over the extended reals with
  exact operations the two results are equal whenever every input is finite: then every normalized entry is a real
  number and the equality is real-number algebra (the expansion of (c − 1)² on the diagonal and the symmetry c_kl = c_lk).

  frame: the two kernels' frames are generated; the reference's is its generated run with the result dropped.
  preserves: the idealization rewrote nothing.
  algebraic: the kernel's run ends with the host's tail of the output array (KernelRun), which is the loss (Bridge); the
  reference's run ends with its composed term, which is the loss (RefValue).
-/
import proofs.«147866_j78932908966303_2_alg».proof.Defs
import proofs.«147866_j78932908966303_2_alg».proof.Proof.Gen.Kernel
import proofs.«147866_j78932908966303_2_alg».proof.Proof.Gen.Kernel.Skeleton
import proofs.«147866_j78932908966303_2_alg».proof.Proof.Gen.Kernel.Launch
import proofs.«147866_j78932908966303_2_alg».proof.Proof.Gen.Kernel.Points
import proofs.«147866_j78932908966303_2_alg».proof.Proof.Gen.Kernel.Frame
import proofs.«147866_j78932908966303_2_alg».proof.Proof.Gen.KernelIdeal
import proofs.«147866_j78932908966303_2_alg».proof.Proof.Gen.KernelIdeal.Skeleton
import proofs.«147866_j78932908966303_2_alg».proof.Proof.Gen.KernelIdeal.Launch
import proofs.«147866_j78932908966303_2_alg».proof.Proof.Gen.KernelIdeal.Points
import proofs.«147866_j78932908966303_2_alg».proof.Proof.Gen.KernelIdeal.Frame
import proofs.«147866_j78932908966303_2_alg».proof.Proof.Gen.ReferenceIdeal
import proofs.«147866_j78932908966303_2_alg».proof.Proof.Gen.Pre_finite_inputs
import proofs.«147866_j78932908966303_2_alg».proof.Proof.Gen.ReferenceIdeal.Run
import proofs.«147866_j78932908966303_2_alg».proof.Proof.Gen.ReferenceIdeal.Read
import proofs.«147866_j78932908966303_2_alg».proof.Proof.Bridge
import proofs.«147866_j78932908966303_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Under finite inputs the kernel's result (the host's tail of the output array) and the reference's composed term are
    both the loss of the eight argument arrays, which the two memories agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Run.tail (F := Ideal) (Cert.KernelIdeal.Run.outArr m c),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v26_eq, a0, a1, a2, a3, a4, a5, a6, a7]
  funext i
  have hr := Cert.Finite.entries_real _ _ _ _ _ _ _ _ (hpre c)
  refine (Cert.RefValue.ref_eq_loss _ _ _ _ _ _ _ _ i).trans ?_
  refine (Cert.KernelIdeal.Bridge.kernel_value m c (fun k => ?_) i).symm
  fin_cases k
  · exact hr.1
  · exact hr.2.1
  · exact hr.2.2.1
  · exact hr.2.2.2.1
  · exact hr.2.2.2.2.1
  · exact hr.2.2.2.2.2.1
  · exact hr.2.2.2.2.2.2.1
  · exact hr.2.2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
